-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16x1024x1024 .f32) (main_arg1 : FVec F S3072x1024 .f32) (main_arg2 : FVec F S1024x1024 .f32) (main_arg3 : FVec F S1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16x1024x1024 : Shape := ⟨3, ![16, 1024, 1024]⟩
abbrev S3072x1024 : Shape := ⟨2, ![3072, 1024]⟩
abbrev S1024x1024 : Shape := ⟨2, ![1024, 1024]⟩
abbrev S1024 : Shape := ⟨1, ![1024]⟩
abbrev S16384x1024 : Shape := ⟨2, ![16384, 1024]⟩
abbrev S16384x3072 : Shape := ⟨2, ![16384, 3072]⟩
abbrev S512x1024 : Shape := ⟨2, ![512, 1024]⟩
abbrev S256x128 : Shape := ⟨2, ![256, 128]⟩
abbrev S1024x128 : Shape := ⟨2, ![1024, 128]⟩
abbrev S256x64 : Shape := ⟨2, ![256, 64]⟩
abbrev S1024x64 : Shape := ⟨2, ![1024, 64]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩

abbrev nBuf : Space → Nat
  | .hbm => 10
  | .vmem => 20
  | .smem => 0
  | _ => 0

abbrev bufTy : (tb : Table) → Fin (tcTables nBuf tb) → BufTy
  | .hbm, ⟨0, _⟩ => ⟨S16x1024x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x3072, .bf16⟩
  | .hbm, ⟨6, _⟩ => ⟨S16384x1024, .bf16⟩
  | .hbm, ⟨7, _⟩ => ⟨S1x1024, .f32⟩
  | .hbm, ⟨8, _⟩ => ⟨S16384x1024, .f32⟩
  | .hbm, ⟨9, _⟩ => ⟨S16x1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S256x128, .bf16⟩
  | .local _ .vmem, ⟨7, _⟩ => ⟨S256x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S256x128, .bf16⟩
  | .local _ .vmem, ⟨13, _⟩ => ⟨S256x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![16, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![1, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S16x1024x1024_S16384x1024 : S16x1024x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S256x128_o0_0_S256x64 : S256x128.Slices ![0, 0] S256x64
  slices_S1024x128_o0_0_S1024x64 : S1024x128.Slices ![0, 0] S1024x64
  reduces_S256x1024_S256 : S256x1024.Reduces [1] S256
  shapeCasts_S256_S256x1 : S256.ShapeCasts S256x1
  broadcasts_S256x1_S256x1024 : S256x1.Broadcasts S256x1024
  inb_S256x128_S256x64_0_0 : ∀ a, (![0, 0] : Fin 2 → Nat) a + S256x64.size a ≤ S256x128.size a
  h_S256x64 : 0 < S256x64.numel
  packedbf16_S256x128_S256x64_0_0 : (Rect.unit (s := S256x128) ![0, 0] S256x64.size inb_S256x128_S256x64_0_0).PackedRows (EltTy.packing .bf16)
  slices_S256x128_o0_64_S256x64 : S256x128.Slices ![0, 64] S256x64
  slices_S1024x128_o0_64_S1024x64 : S1024x128.Slices ![0, 64] S1024x64
  inb_S256x128_S256x64_0_64 : ∀ a, (![0, 64] : Fin 2 → Nat) a + S256x64.size a ≤ S256x128.size a
  packedbf16_S256x128_S256x64_0_64 : (Rect.unit (s := S256x128) ![0, 64] S256x64.size inb_S256x128_S256x64_0_64).PackedRows (EltTy.packing .bf16)
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S16x1024x1024 : S16384x1024.ShapeCasts S16x1024x1024
  dot_S512x1024_S1024x1024_S512x1024_1_1_0_0_n_n_wf : DotDims.WF S512x1024 S1024x1024 S512x1024 [1] [1] [0] [0] [] []
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .f32 = 32 ∨ (Rect.block (s := S3072x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x3072.size a
  hwx0_2 : ∀ i : grid0.Coords, EltTy.bits .bf16 = 32 ∨ (Rect.block (s := S16384x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S16384x3072.size a
  hwx1_0 : ∀ i : grid1.Coords, EltTy.bits .bf16 = 32 ∨ (Rect.block (s := S16384x3072) S256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x3072.size a
  hwx1_1 : ∀ i : grid1.Coords, EltTy.bits .bf16 = 32 ∨ (Rect.block (s := S16384x3072) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x3072.size a
  hwx1_2 : ∀ i : grid1.Coords, EltTy.bits .bf16 = 32 ∨ (Rect.block (s := S16384x3072) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S16384x1024.size a
  hwx1_3 : ∀ i : grid1.Coords, EltTy.bits .bf16 = 32 ∨ (Rect.block (s := S16384x1024) S256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S16384x1024.size a
  hwx2_0 : ∀ i : grid2.Coords, EltTy.bits .bf16 = 32 ∨ (Rect.block (s := S16384x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S16384x1024.size a
  hwx2_3 : ∀ i : grid2.Coords, EltTy.bits .f32 = 32 ∨ (Rect.block (s := S16384x1024) S512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16x1024x1024 : Shape := ⟨3, ![16, 1024, 1024]⟩
abbrev S3072x1024 : Shape := ⟨2, ![3072, 1024]⟩
abbrev S1024x1024 : Shape := ⟨2, ![1024, 1024]⟩
abbrev S1024 : Shape := ⟨1, ![1024]⟩
abbrev S16x1024x3072 : Shape := ⟨3, ![16, 1024, 3072]⟩
abbrev S16x1024x3x16x64 : Shape := ⟨5, ![16, 1024, 3, 16, 64]⟩
abbrev S3x16x16x1024x64 : Shape := ⟨5, ![3, 16, 16, 1024, 64]⟩
abbrev S1x16x16x1024x64 : Shape := ⟨5, ![1, 16, 16, 1024, 64]⟩
abbrev S16x16x1024x64 : Shape := ⟨4, ![16, 16, 1024, 64]⟩
abbrev S16x16x1024x1024 : Shape := ⟨4, ![16, 16, 1024, 1024]⟩
abbrev S_ : Shape := ⟨0, ![]⟩
abbrev S16x16x1024 : Shape := ⟨3, ![16, 16, 1024]⟩
abbrev S16x16x1024x1 : Shape := ⟨4, ![16, 16, 1024, 1]⟩
abbrev S16x1024x16x64 : Shape := ⟨4, ![16, 1024, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S16x1024x3072, .f32⟩
  | .hbm, ⟨5, _⟩ => ⟨S16x1024x3x16x64, .f32⟩
  | .hbm, ⟨6, _⟩ => ⟨S3x16x16x1024x64, .f32⟩
  | .hbm, ⟨7, _⟩ => ⟨S1x16x16x1024x64, .f32⟩
  | .hbm, ⟨8, _⟩ => ⟨S16x16x1024x64, .f32⟩
  | .hbm, ⟨9, _⟩ => ⟨S1x16x16x1024x64, .f32⟩
  | .hbm, ⟨10, _⟩ => ⟨S16x16x1024x64, .f32⟩
  | .hbm, ⟨11, _⟩ => ⟨S1x16x16x1024x64, .f32⟩
  | .hbm, ⟨12, _⟩ => ⟨S16x16x1024x64, .f32⟩
  | .hbm, ⟨13, _⟩ => ⟨S16x16x1024x1024, .f32⟩
  | .hbm, ⟨14, _⟩ => ⟨S_, .f32⟩
  | .hbm, ⟨15, _⟩ => ⟨S16x16x1024x1024, .f32⟩
  | .hbm, ⟨16, _⟩ => ⟨S16x16x1024x1024, .f32⟩
  | .hbm, ⟨17, _⟩ => ⟨S_, .f32⟩
  | .hbm, ⟨18, _⟩ => ⟨S16x16x1024, .f32⟩
  | .hbm, ⟨19, _⟩ => ⟨S_, .f32⟩
  | .hbm, ⟨20, _⟩ => ⟨S16x16x1024, .f32⟩
  | .hbm, ⟨21, _⟩ => ⟨S16x16x1024, .f32⟩
  | .hbm, ⟨22, _⟩ => ⟨S16x16x1024x1, .f32⟩
  | .hbm, ⟨23, _⟩ => ⟨S16x16x1024x1024, .f32⟩
  | .hbm, ⟨24, _⟩ => ⟨S16x16x1024x1024, .f32⟩
  | .hbm, ⟨25, _⟩ => ⟨S16x16x1024x1024, .f32⟩
  | .hbm, ⟨26, _⟩ => ⟨S_, .f32⟩
  | .hbm, ⟨27, _⟩ => ⟨S16x16x1024, .f32⟩
  | .hbm, ⟨28, _⟩ => ⟨S16x16x1024x1, .f32⟩
  | .hbm, ⟨29, _⟩ => ⟨S16x16x1024x1024, .f32⟩
  | .hbm, ⟨30, _⟩ => ⟨S16x16x1024x1024, .f32⟩
  | .hbm, ⟨31, _⟩ => ⟨S16x16x1024x64, .f32⟩
  | .hbm, ⟨32, _⟩ => ⟨S16x1024x16x64, .f32⟩
  | .hbm, ⟨33, _⟩ => ⟨S16x1024x1024, .f32⟩
  | .hbm, ⟨34, _⟩ => ⟨S16x1024x1024, .f32⟩
  | .hbm, ⟨35, _⟩ => ⟨S1x1x1024, .f32⟩
  | .hbm, ⟨36, _⟩ => ⟨S16x1024x1024, .f32⟩
  | .hbm, ⟨37, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S16x1024x3072_S16x1024x3x16x64 : S16x1024x3072.ShapeCasts S16x1024x3x16x64
  transposes_S16x1024x3x16x64_S3x16x16x1024x64_2_0_3_1_4 : S16x1024x3x16x64.Transposes [2, 0, 3, 1, 4] S3x16x16x1024x64
  slices_S3x16x16x1024x64_S1x16x16x1024x64_0_0_0_0_0 : S3x16x16x1024x64.Slices ![0, 0, 0, 0, 0] S1x16x16x1024x64
  shapeCasts_S1x16x16x1024x64_S16x16x1024x64 : S1x16x16x1024x64.ShapeCasts S16x16x1024x64
  slices_S3x16x16x1024x64_S1x16x16x1024x64_1_0_0_0_0 : S3x16x16x1024x64.Slices ![1, 0, 0, 0, 0] S1x16x16x1024x64
  slices_S3x16x16x1024x64_S1x16x16x1024x64_2_0_0_0_0 : S3x16x16x1024x64.Slices ![2, 0, 0, 0, 0] S1x16x16x1024x64
  bcast_S_S16x16x1024x1024 : S_.BroadcastsInDim S16x16x1024x1024 (![] : Fin 0 → Fin S16x16x1024x1024.rank)
  reducesTo_S16x16x1024x1024_S16x16x1024_d3 : S16x16x1024x1024.ReducesTo [3] S16x16x1024
  h_S_ : 0 < S_.numel
  bcast_S_S16x16x1024 : S_.BroadcastsInDim S16x16x1024 (![] : Fin 0 → Fin S16x16x1024.rank)
  bcast_S16x16x1024_S16x16x1024x1_0_1_2 : S16x16x1024.BroadcastsInDim S16x16x1024x1 (![0, 1, 2] : Fin 3 → Fin S16x16x1024x1.rank)
  bcast_S16x16x1024x1_S16x16x1024x1024_0_1_2_3 : S16x16x1024x1.BroadcastsInDim S16x16x1024x1024 (![0, 1, 2, 3] : Fin 4 → Fin S16x16x1024x1024.rank)
  transposes_S16x16x1024x64_S16x1024x16x64_0_2_1_3 : S16x16x1024x64.Transposes [0, 2, 1, 3] S16x1024x16x64
  shapeCasts_S16x1024x16x64_S16x1024x1024 : S16x1024x16x64.ShapeCasts S16x1024x1024
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  dot_S16x1024x1024_S3072x1024_S16x1024x3072_2_1_01_0_n_n_wf : DotDims.WF S16x1024x1024 S3072x1024 S16x1024x3072 [2] [1] [0, 1] [0] [] []
  dot_S16x16x1024x64_S16x16x1024x64_S16x16x1024x1024_3_3_2_2_01_01_wf : DotDims.WF S16x16x1024x64 S16x16x1024x64 S16x16x1024x1024 [3] [3] [2] [2] [0, 1] [0, 1]
  dot_S16x16x1024x1024_S16x16x1024x64_S16x16x1024x64_3_2_2_3_01_01_wf : DotDims.WF S16x16x1024x1024 S16x16x1024x64 S16x16x1024x64 [3] [2] [2] [3] [0, 1] [0, 1]
  dot_S16x1024x1024_S1024x1024_S16x1024x1024_2_1_01_0_n_n_wf : DotDims.WF S16x1024x1024 S1024x1024 S16x1024x1024 [2] [1] [0, 1] [0] [] []

variable [Facts₀]

def dot_S16x1024x1024_S3072x1024_S16x1024x3072_2_1_01_0_n_n : DotDims S16x1024x1024 S3072x1024 S16x1024x3072 where
  lhsContracting := [2]
  rhsContracting := [1]
  lhsNonContracting := [0, 1]
  rhsNonContracting := [0]
  lhsBatch := []
  rhsBatch := []
  wf := dot_S16x1024x1024_S3072x1024_S16x1024x3072_2_1_01_0_n_n_wf
def dot_S16x16x1024x64_S16x16x1024x64_S16x16x1024x1024_3_3_2_2_01_01 : DotDims S16x16x1024x64 S16x16x1024x64 S16x16x1024x1024 where
  lhsContracting := [3]
  rhsContracting := [3]
  lhsNonContracting := [2]
  rhsNonContracting := [2]
  lhsBatch := [0, 1]
  rhsBatch := [0, 1]
  wf := dot_S16x16x1024x64_S16x16x1024x64_S16x16x1024x1024_3_3_2_2_01_01_wf
def dot_S16x16x1024x1024_S16x16x1024x64_S16x16x1024x64_3_2_2_3_01_01 : DotDims S16x16x1024x1024 S16x16x1024x64 S16x16x1024x64 where
  lhsContracting := [3]
  rhsContracting := [2]
  lhsNonContracting := [2]
  rhsNonContracting := [3]
  lhsBatch := [0, 1]
  rhsBatch := [0, 1]
  wf := dot_S16x16x1024x1024_S16x16x1024x64_S16x16x1024x64_3_2_2_3_01_01_wf
def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf

class Facts : Prop extends Facts₀ where

variable [Facts]
-- ==== Proof.K.Region0.lean ====
/-
  The first pallas_call (the q/k/v projection) on one core, at any float instance: what its body leaves in
  the output window's staging buffer at a grid point, as a function of the two input blocks it is handed, and the
  fact that the body, run on whole staging buffers holding those blocks, terminates without a fault and leaves exactly that.
  The grid has 3 x 32 points: point (j, i) reads rows 512 i .. 512 i + 511 of the activations (window 0), rows
  1024 j .. 1024 j + 1023 of the weight (window 1, moved only when j changes), and writes the 512 x 1024 block
  (i, j) of the projection (window 2).  Everything is stated at a parameter `V`, the contents of the core's
  buffers when the call is entered.
-/
import proofs.«132312_j85676007621236_2_alg».proof.Proof.Gen.Kernel.Launch
import proofs.«132312_j85676007621236_2_alg».proof.Proof.Gen.Kernel.Skeleton
import proofs.«132312_j85676007621236_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index did not move since the last fetch. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole 512 x 1024 rectangle of a staging buffer, and the whole 1024 x 1024 one. -/
abbrev whole512 : Rect S512x1024 := Rect.unit (s := S512x1024) ![0, 0] S512x1024.size inb_S512x1024_S512x1024_0_0
abbrev whole1024 : Rect S1024x1024 := Rect.unit (s := S1024x1024) ![0, 0] S1024x1024.size inb_S1024x1024_S1024x1024_0_0

/-- What the body leaves in the output window's buffer: its one store, of the product of the two loaded blocks. -/
def res0 (x0 : Vec F S512x1024 .f32) (x1 : Vec F S1024x1024 .f32) : Vec F S512x1024 .bf16 :=
  View.canon [⟨whole512, k0_pay1 (View.ld x0 whole512) (View.ld x1 whole1024)⟩]

/-- The one store covers the buffer. -/
theorem covers0 (p0 : Vec F S512x1024 .bf16) (y : S512x1024.Idx) :
    ∃ pc ∈ ([⟨whole512, p0⟩] : List (View.Piece (Elt F) S512x1024 .bf16)), y ∈ pc.1.set :=
  View.cover_of_tiled [⟨whole512, p0⟩] S512x1024.size (by rfl) y

set_option maxHeartbeats 1000000 in
/-- The body on whole staging buffers, the inputs' at `x0`, `x1` and the output's at anything, runs to the
    continuation with the inputs' unchanged and the output's at `res0 x0 x1`. -/
theorem body0_runs (c : Dev nD) (E : Set ℕ) (i : grid0.Coords) (arg2 : Memref sig .tc .vmem S512x1024 .f32) (harg2 : arg2.IsWhole)
    (arg3 : Memref sig .tc .vmem S1024x1024 .f32) (harg3 : arg3.IsWhole) (arg4 : Memref sig .tc .vmem S512x1024 .bf16) (harg4 : arg4.IsWhole)
    (x0 : Vec F S512x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (res0 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0 _)

/-- The proof data of the call on core `c`: the arrays as the call finds them; after the body at point `t` each input
    buffer at its block and the output buffer at `res0` of the two blocks; nothing else touched, nothing owed. -/
def pd0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem pd0_A (c : Dev nD) (w : Fin cfg0.W) : (pd0 V c).A w = V c (Pipeline.arrRef spec0 w) := by
  dsimp only [pd0]
theorem pd0_after0 (c : Dev nD) (t : Fin cfg0.N) : (pd0 V c).after 0 t = blk0 V c 0 t := by dsimp only [pd0]
theorem pd0_after1 (c : Dev nD) (t : Fin cfg0.N) : (pd0 V c).after 1 t = blk0 V c 1 t := by dsimp only [pd0]
theorem pd0_after2 (c : Dev nD) (t : Fin cfg0.N) : (pd0 V c).after 2 t = res0 (blk0 V c 0 t) (blk0 V c 1 t) := by dsimp only [pd0]
theorem pd0_before0 (c : Dev nD) (t : Fin cfg0.N) (d) : (pd0 V c).before 0 t d = blk0 V c 0 t :=
  held0_0 V (pd0 V c) (pd0_A V c 0) (pd0_after0 V c) t d
theorem pd0_before1 (c : Dev nD) (t : Fin cfg0.N) (d) : (pd0 V c).before 1 t d = blk0 V c 1 t :=
  held0_1 V (pd0 V c) (pd0_A V c 1) (pd0_after1 V c) t d

/-- What the body is called with at point `t`, the windows one by one, -/
def pre0 (c : Dev nD) (t : Fin cfg0.N) : sProp 𝕄 :=
  iprop((pd0 V c).Φ t.castSucc ∗ (pd0 V c).owesAt () t.castSucc
    ∗ (∃ d, owns (c : Thread nD τ) (st0_0 t) fullShare ((pd0 V c).before 0 t d))
    ∗ (∃ d, owns (c : Thread nD τ) (st0_1 t) fullShare ((pd0 V c).before 1 t d))
    ∗ (∃ d, owns (c : Thread nD τ) (st0_2 t) fullShare ((pd0 V c).before 2 t d)))

/-- and what it returns. -/
def post0 (c : Dev nD) (t : Fin cfg0.N) : sProp 𝕄 :=
  iprop((pd0 V c).Φ t.succ ∗ (pd0 V c).owesAt () t.succ
    ∗ owns (c : Thread nD τ) (st0_0 t) fullShare ((pd0 V c).after 0 t)
    ∗ owns (c : Thread nD τ) (st0_1 t) fullShare ((pd0 V c).after 1 t)
    ∗ owns (c : Thread nD τ) (st0_2 t) fullShare ((pd0 V c).after 2 t))

theorem point0_runs (c : Dev nD) (t : Fin cfg0.N) :
    pre0 V c t ⊢ wp frame (wpE (defs₀ (F := F)) Variants.none c none) Set.univ (bodyAt0 t) (fun _ => post0 V c t) := by
  unfold pre0 post0 bodyAt0
  simp only [pd0_before0, pd0_before1]
  rw [show (pd0 V c).Φ t.succ = (pd0 V c).Φ t.castSucc from rfl,
    show (pd0 V c).owesAt () t.succ = (pd0 V c).owesAt () t.castSucc from rfl,
    pd0_after0, pd0_after1, pd0_after2]
  iintro ⟨HΦ, Ho, ⟨%d0, H0⟩, ⟨%d1, H1⟩, ⟨%d2, H2⟩⟩
  iapply (body0_runs c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the call, at every point. -/
theorem obligation0 (c : Dev nD) : BodyObligation (pd0 (F := F) V c) (defs₀ (F := F)) Variants.none () Set.univ := fun t => by
  rw [bigSep_W0, bigSep_W0]
  exact point0_runs V c t

end Cert.Kernel.Hand

end
-- ==== Proof.K.Region1.lean ====
/-
  The second pallas_call (softmax attention, two heads per grid point) on one core, at any float instance: what its
  body leaves in the output window's staging buffer at a grid point, as a function of the three input blocks, and the
  fact that the body run on whole staging buffers holding those blocks terminates without a fault and leaves exactly that.
  The grid has 16 x 8 x 4 points: point (b, h2, nt) reads the 256 query rows (4 b + nt) of lane strip h2 (window 0), the
  1024 key rows of batch b in strip 8 + h2 (window 1) and the 1024 value rows in strip 16 + h2 (window 2) — three
  windows on ONE array, the projection — and writes the 256 x 128 block ((4 b + nt), h2) of the attention output
  (window 3) by two stores, lanes 0..63 (the strip's first head) and lanes 64..127 (its second).
  Stated at a parameter `V`, the contents of the core's buffers when the call is entered.
-/
import proofs.«132312_j85676007621236_2_alg».proof.Proof.Gen.Kernel.Launch
import proofs.«132312_j85676007621236_2_alg».proof.Proof.Gen.Kernel.Skeleton
import proofs.«132312_j85676007621236_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole rectangles of the query and key/value staging buffers, and the two lane halves of the output's. -/
abbrev queryRect : Rect S256x128 := Rect.unit (s := S256x128) ![0, 0] S256x128.size inb_S256x128_S256x128_0_0
abbrev keyRect : Rect S1024x128 := Rect.unit (s := S1024x128) ![0, 0] S1024x128.size inb_S1024x128_S1024x128_0_0
abbrev lanesLo : Rect S256x128 := Rect.unit (s := S256x128) ![0, 0] S256x64.size inb_S256x128_S256x64_0_0
abbrev lanesHi : Rect S256x128 := Rect.unit (s := S256x128) ![0, 64] S256x64.size inb_S256x128_S256x64_0_64

/-- What the body leaves in the output window's buffer: its two stores, the later one first. -/
def res1 (x0 : Vec F S256x128 .bf16) (x1 x2 : Vec F S1024x128 .bf16) : Vec F S256x128 .bf16 :=
  View.canon [⟨lanesHi, k1_pay1 (k1_pay6 (View.ld x2 keyRect)) (k1_pay7 (View.ld x0 queryRect) (View.ld x1 keyRect)) (k1_pay8 (View.ld x0 queryRect) (View.ld x1 keyRect))⟩,
    ⟨lanesLo, k1_pay5 (View.ld x0 queryRect) (View.ld x1 keyRect) (View.ld x2 keyRect)⟩]

/-- The two stores tile the buffer. -/
theorem covers1 (p0 p1 : Vec F S256x64 .bf16) (y : S256x128.Idx) :
    ∃ pc ∈ ([⟨lanesHi, p0⟩, ⟨lanesLo, p1⟩] : List (View.Piece (Elt F) S256x128 .bf16)), y ∈ pc.1.set :=
  View.cover_of_tiled [⟨lanesHi, p0⟩, ⟨lanesLo, p1⟩] S256x64.size (by rfl) y

set_option maxHeartbeats 1000000 in
/-- The body on whole staging buffers, the inputs' at `x0`, `x1`, `x2` and the output's at anything, runs to the
    continuation with the inputs' unchanged and the output's at `res1 x0 x1 x2`. -/
theorem body1_runs (c : Dev nD) (E : Set ℕ) (i : grid1.Coords) (arg3 : Memref sig .tc .vmem S256x128 .bf16) (harg3 : arg3.IsWhole)
    (arg4 : Memref sig .tc .vmem S1024x128 .bf16) (harg4 : arg4.IsWhole) (arg5 : Memref sig .tc .vmem S1024x128 .bf16) (harg5 : arg5.IsWhole)
    (arg6 : Memref sig .tc .vmem S256x128 .bf16) (harg6 : arg6.IsWhole)
    (x0 : Vec F S256x128 .bf16) (x1 x2 : Vec F S1024x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (res1 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _ _)

/-- The proof data of the call on core `c`: the three input windows hold their one array at a third of it each
    (a half, and the two halves of the other half), so that the three shares make the whole. -/
def pd1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => res1 (blk1 V c 0 t) (blk1 V c 1 t) (blk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem pd1_A (c : Dev nD) (w : Fin cfg1.W) : (pd1 V c).A w = V c (Pipeline.arrRef spec1 w) := by
  dsimp only [pd1]
theorem pd1_after0 (c : Dev nD) (t : Fin cfg1.N) : (pd1 V c).after 0 t = blk1 V c 0 t := by dsimp only [pd1]
theorem pd1_after1 (c : Dev nD) (t : Fin cfg1.N) : (pd1 V c).after 1 t = blk1 V c 1 t := by dsimp only [pd1]
theorem pd1_after2 (c : Dev nD) (t : Fin cfg1.N) : (pd1 V c).after 2 t = blk1 V c 2 t := by dsimp only [pd1]
theorem pd1_after3 (c : Dev nD) (t : Fin cfg1.N) :
    (pd1 V c).after 3 t = res1 (blk1 V c 0 t) (blk1 V c 1 t) (blk1 V c 2 t) := by dsimp only [pd1]
theorem pd1_before0 (c : Dev nD) (t : Fin cfg1.N) (d) : (pd1 V c).before 0 t d = blk1 V c 0 t :=
  held1_0 V (pd1 V c) (pd1_A V c 0) (pd1_after0 V c) t d
theorem pd1_before1 (c : Dev nD) (t : Fin cfg1.N) (d) : (pd1 V c).before 1 t d = blk1 V c 1 t :=
  held1_1 V (pd1 V c) (pd1_A V c 1) (pd1_after1 V c) t d
theorem pd1_before2 (c : Dev nD) (t : Fin cfg1.N) (d) : (pd1 V c).before 2 t d = blk1 V c 2 t :=
  held1_2 V (pd1 V c) (pd1_A V c 2) (pd1_after2 V c) t d

/-- What the body is called with at point `t`, the windows one by one, -/
def pre1 (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d))
    ∗ (∃ d, owns (c : Thread nD τ) (st1_3 t) fullShare ((pd1 V c).before 3 t d)))

/-- and what it returns. -/
def post1 (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t)
    ∗ owns (c : Thread nD τ) (st1_3 t) fullShare ((pd1 V c).after 3 t))

theorem point1_runs (c : Dev nD) (t : Fin cfg1.N) :
    pre1 V c t ⊢ wp frame (wpE (defs₀ (F := F)) Variants.none c none) Set.univ (bodyAt1 t) (fun _ => post1 V c t) := by
  unfold pre1 post1 bodyAt1
  simp only [pd1_before0, pd1_before1, pd1_before2]
  rw [show (pd1 V c).Φ t.succ = (pd1 V c).Φ t.castSucc from rfl,
    show (pd1 V c).owesAt () t.succ = (pd1 V c).owesAt () t.castSucc from rfl,
    pd1_after0, pd1_after1, pd1_after2, pd1_after3]
  iintro ⟨HΦ, Ho, ⟨%d0, H0⟩, ⟨%d1, H1⟩, ⟨%d2, H2⟩, ⟨%d3, H3⟩⟩
  iapply (body1_runs c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem obligation1 (c : Dev nD) : BodyObligation (pd1 (F := F) V c) (defs₀ (F := F)) Variants.none () Set.univ := fun t => by
  rw [bigSep_W1, bigSep_W1]
  exact point1_runs V c t

end Cert.Kernel.Hand

end
-- ==== Proof.K.Region2.lean ====
/-
  The third pallas_call (the output projection with its bias) on one core, at any float instance: what its body leaves
  in the output window's staging buffer at a grid point, as a function of the three input blocks, and the fact that the
  body run on whole staging buffers holding those blocks terminates without a fault and leaves exactly that.
  The grid has 1 x 32 points: point (0, i) reads rows 512 i .. 512 i + 511 of the attention output (window 0), the whole
  output weight (window 1) and the bias row (window 2), both fetched once, and writes rows 512 i .. of the result
  (window 3).  Stated at a parameter `V`, the contents of the core's buffers when the call is entered.
-/
import proofs.«132312_j85676007621236_2_alg».proof.Proof.Gen.Kernel.Launch
import proofs.«132312_j85676007621236_2_alg».proof.Proof.Gen.Kernel.Skeleton
import proofs.«132312_j85676007621236_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem held2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem held2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole rectangles of the three kinds of staging buffer. -/
abbrev rows512 : Rect S512x1024 := Rect.unit (s := S512x1024) ![0, 0] S512x1024.size inb_S512x1024_S512x1024_0_0
abbrev square1024 : Rect S1024x1024 := Rect.unit (s := S1024x1024) ![0, 0] S1024x1024.size inb_S1024x1024_S1024x1024_0_0
abbrev row1 : Rect S1x1024 := Rect.unit (s := S1x1024) ![0, 0] S1x1024.size inb_S1x1024_S1x1024_0_0

/-- What the body leaves in the output window's buffer: its one store. -/
def res2 (x0 : Vec F S512x1024 .bf16) (x1 : Vec F S1024x1024 .f32) (x2 : Vec F S1x1024 .f32) : Vec F S512x1024 .f32 :=
  View.canon [⟨rows512, k2_pay1 (View.ld x0 rows512) (View.ld x1 square1024) (View.ld x2 row1)⟩]

/-- The one store covers the buffer. -/
theorem covers2 (p0 : Vec F S512x1024 .f32) (y : S512x1024.Idx) :
    ∃ pc ∈ ([⟨rows512, p0⟩] : List (View.Piece (Elt F) S512x1024 .f32)), y ∈ pc.1.set :=
  View.cover_of_tiled [⟨rows512, p0⟩] S512x1024.size (by rfl) y

set_option maxHeartbeats 1000000 in
/-- The body on whole staging buffers, the inputs' at `x0`, `x1`, `x2` and the output's at anything, runs to the
    continuation with the inputs' unchanged and the output's at `res2 x0 x1 x2`. -/
theorem body2_runs (c : Dev nD) (E : Set ℕ) (i : grid2.Coords) (arg2 : Memref sig .tc .vmem S512x1024 .bf16) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S512x1024 .f32) (harg5 : arg5.IsWhole)
    (x0 : Vec F S512x1024 .bf16) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (res2 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-- The proof data of the call on core `c`. -/
def pd2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => res2 (blk2 V c 0 t) (blk2 V c 1 t) (blk2 V c 2 t)
  Φ _ := Pipeline.ΦA spec2 c
  q _ := fullShare
  owed _ := 0

theorem pd2_A (c : Dev nD) (w : Fin cfg2.W) : (pd2 V c).A w = V c (Pipeline.arrRef spec2 w) := by
  dsimp only [pd2]
theorem pd2_after0 (c : Dev nD) (t : Fin cfg2.N) : (pd2 V c).after 0 t = blk2 V c 0 t := by dsimp only [pd2]
theorem pd2_after1 (c : Dev nD) (t : Fin cfg2.N) : (pd2 V c).after 1 t = blk2 V c 1 t := by dsimp only [pd2]
theorem pd2_after2 (c : Dev nD) (t : Fin cfg2.N) : (pd2 V c).after 2 t = blk2 V c 2 t := by dsimp only [pd2]
theorem pd2_after3 (c : Dev nD) (t : Fin cfg2.N) :
    (pd2 V c).after 3 t = res2 (blk2 V c 0 t) (blk2 V c 1 t) (blk2 V c 2 t) := by dsimp only [pd2]
theorem pd2_before0 (c : Dev nD) (t : Fin cfg2.N) (d) : (pd2 V c).before 0 t d = blk2 V c 0 t :=
  held2_0 V (pd2 V c) (pd2_A V c 0) (pd2_after0 V c) t d
theorem pd2_before1 (c : Dev nD) (t : Fin cfg2.N) (d) : (pd2 V c).before 1 t d = blk2 V c 1 t :=
  held2_1 V (pd2 V c) (pd2_A V c 1) (pd2_after1 V c) t d
theorem pd2_before2 (c : Dev nD) (t : Fin cfg2.N) (d) : (pd2 V c).before 2 t d = blk2 V c 2 t :=
  held2_2 V (pd2 V c) (pd2_A V c 2) (pd2_after2 V c) t d

/-- What the body is called with at point `t`, the windows one by one, -/
def pre2 (c : Dev nD) (t : Fin cfg2.N) : sProp 𝕄 :=
  iprop((pd2 V c).Φ t.castSucc ∗ (pd2 V c).owesAt () t.castSucc
    ∗ (∃ d, owns (c : Thread nD τ) (st2_0 t) fullShare ((pd2 V c).before 0 t d))
    ∗ (∃ d, owns (c : Thread nD τ) (st2_1 t) fullShare ((pd2 V c).before 1 t d))
    ∗ (∃ d, owns (c : Thread nD τ) (st2_2 t) fullShare ((pd2 V c).before 2 t d))
    ∗ (∃ d, owns (c : Thread nD τ) (st2_3 t) fullShare ((pd2 V c).before 3 t d)))

/-- and what it returns. -/
def post2 (c : Dev nD) (t : Fin cfg2.N) : sProp 𝕄 :=
  iprop((pd2 V c).Φ t.succ ∗ (pd2 V c).owesAt () t.succ
    ∗ owns (c : Thread nD τ) (st2_0 t) fullShare ((pd2 V c).after 0 t)
    ∗ owns (c : Thread nD τ) (st2_1 t) fullShare ((pd2 V c).after 1 t)
    ∗ owns (c : Thread nD τ) (st2_2 t) fullShare ((pd2 V c).after 2 t)
    ∗ owns (c : Thread nD τ) (st2_3 t) fullShare ((pd2 V c).after 3 t))

theorem point2_runs (c : Dev nD) (t : Fin cfg2.N) :
    pre2 V c t ⊢ wp frame (wpE (defs₀ (F := F)) Variants.none c none) Set.univ (bodyAt2 t) (fun _ => post2 V c t) := by
  unfold pre2 post2 bodyAt2
  simp only [pd2_before0, pd2_before1, pd2_before2]
  rw [show (pd2 V c).Φ t.succ = (pd2 V c).Φ t.castSucc from rfl,
    show (pd2 V c).owesAt () t.succ = (pd2 V c).owesAt () t.castSucc from rfl,
    pd2_after0, pd2_after1, pd2_after2, pd2_after3]
  iintro ⟨HΦ, Ho, ⟨%d0, H0⟩, ⟨%d1, H1⟩, ⟨%d2, H2⟩, ⟨%d3, H3⟩⟩
  iapply (body2_runs c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem obligation2 (c : Dev nD) : BodyObligation (pd2 (F := F) V c) (defs₀ (F := F)) Variants.none () Set.univ := fun t => by
  rw [bigSep_W2, bigSep_W2]
  exact point2_runs V c t

end Cert.Kernel.Hand

end
-- ==== Proof.K.Run.lean ====
/-
  The program as a whole on every core, at any float instance: the contents of the core's buffers between the six
  items of the main function (reshape the activations; the projection call; the attention call; reshape the bias; the
  output-projection call; reshape the result) as a fold from the launch memory, the three calls as segments entered
  from and left at those contents, and the run: every weakly fair execution terminates without a fault, and every
  final memory holds each buffer of the main function at the last contents of the fold.
  The attention call hands ONE array, the projection, to three input windows: at its entry the array's full ownership
  is split into a half and two quarters, one per window, and rejoined at its exit.
-/
import proofs.«132312_j85676007621236_2_alg».proof.Proof.K.Region0
import proofs.«132312_j85676007621236_2_alg».proof.Proof.K.Region1
import proofs.«132312_j85676007621236_2_alg».proof.Proof.K.Region2

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch, and after the activations are reshaped to rows. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the projection call: its arrays at what its write-backs leave, every other buffer as entered. -/
def W2 (c : Dev nD) : Valuation τ sig (Elt F) :=
  Pipeline.withArrays spec0 c (W1 m ρ c) fun w => (pd0 (V1 m ρ) c).arrAt w cfg0.N
theorem W2_arr (c : Dev nD) (w : Fin cfg0.W) :
    W2 m ρ c (Proc.devRef .tc (Pipeline.arrRef spec0 w)) = (pd0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0 (c : Dev nD) (w : Fin cfg0.W) : (pd0 (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention call: its output array at what its write-backs leave, every other buffer as entered (its
    three input windows read one array and change nothing). -/
def W3 (c : Dev nD) : Valuation τ sig (Elt F) :=
  Function.update (W2 m ρ c) (Proc.devRef .tc main_v2) ((pd1 (V2 m ρ) c).arrAt 3 cfg1.N)
abbrev V3 : (c : Dev nD) → (b : Ref sig .tc) → Buf (Elt F) ((c : Thread nD τ).loc b) := fun c b => W3 m ρ c b
theorem W3_out (c : Dev nD) : W3 m ρ c (Proc.devRef .tc main_v2) = (pd1 (V2 m ρ) c).arrAt 3 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..

/-- After the bias is reshaped to a row. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After the output-projection call. -/
def W5 (c : Dev nD) : Valuation τ sig (Elt F) :=
  Pipeline.withArrays spec2 c (W4 m ρ c) fun w => (pd2 (V4 m ρ) c).arrAt w cfg2.N
theorem W5_arr (c : Dev nD) (w : Fin cfg2.W) :
    W5 m ρ c (Proc.devRef .tc (Pipeline.arrRef spec2 w)) = (pd2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem left2 (c : Dev nD) (w : Fin cfg2.W) : (pd2 (V4 m ρ) c).arrAt w cfg2.N = V5 m ρ c (Pipeline.arrRef spec2 w) :=
  (W5_arr m ρ c w).symm
theorem kept2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the result is reshaped: the end. -/
abbrev W6 : Dev nD → Valuation τ sig (Elt F) := fun c => StableHlo.after hostOps3 (W5 m ρ c)

/-! ## One array for three windows: splitting and rejoining its ownership -/

/-- At the attention call's entry the core's unscoped buffers are the call's arrays at the entry contents — the
    projection's full ownership split into a half and two quarters for the three windows that read it — and the rest. -/
theorem enter1 (V : (c : Dev nD) → (b : Ref sig .tc) → Buf (Elt F) ((c : Thread nD τ).loc b)) (c : Dev nD) :
    (unscopedBufs c (V c) : sProp 𝕄) ⊢ iprop((pd1 V c).arrays ((pd1 V c).arrAt · 0) ∗ Pipeline.unscopedRest spec1 c (V c)) := by
  rw [Pipeline.unscopedBufs_split₀ cfgs 1 (fun w => by revert w; decide) c (V c)]
  refine sep_mono ?_ .rfl
  unfold Pipeline.arrBufs Dat.arrays
  rw [bigSep_W1]
  rw [show Finset.image (Pipeline.arrRef (cfgs 1).spec) Finset.univ = ({main_v1, main_v2} : Finset (Ref sig .tc)) from by decide]
  rw [bigSep_insert (by decide), bigSep_singleton]
  rw [(arr_whole1 0).set_eq_univ, (arr_whole1 3).set_eq_univ]
  rw [show (pd1 V c).share 0 = fullShare.left from rfl, show (pd1 V c).share 1 = fullShare.right.left from rfl,
    show (pd1 V c).share 2 = fullShare.right.right from rfl, show (pd1 V c).share 3 = fullShare from rfl]
  refine (show iprop((((c : Thread nD τ).loc main_v1) ↦{fullShare} V c main_v1) ∗ (((c : Thread nD τ).loc main_v2) ↦{fullShare} V c main_v2)) ⊢ _ from ?_)
  iintro ⟨H1, H2⟩
  ihave H1' := (pointsTo_share (PosShare.mem_left_op_right fullShare)).1 $$ H1
  icases H1' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H2

/-- At its exit the three shares rejoin: the call's arrays at their final contents and the rest are the core's
    unscoped buffers at any contents that have the attention output at what the call left and agree elsewhere. -/
theorem leave1 (V V' : (c : Dev nD) → (b : Ref sig .tc) → Buf (Elt F) ((c : Thread nD τ).loc b)) (c : Dev nD)
    (hout : (pd1 V c).arrAt 3 cfg1.N = V' c main_v2) (hrest : ∀ b, b ≠ main_v2 → V' c b = V c b) :
    iprop((pd1 V c).arrays ((pd1 V c).arrAt · cfg1.N) ∗ Pipeline.unscopedRest spec1 c (V c)) ⊢ (unscopedBufs c (V' c) : sProp 𝕄) := by
  rw [Pipeline.unscopedBufs_split₀ cfgs 1 (fun w => by revert w; decide) c (V' c)]
  refine sep_mono ?_ (Entails.of_eq ?_)
  · unfold Pipeline.arrBufs Dat.arrays
    rw [bigSep_W1]
    rw [show Finset.image (Pipeline.arrRef (cfgs 1).spec) Finset.univ = ({main_v1, main_v2} : Finset (Ref sig .tc)) from by decide]
    rw [bigSep_insert (by decide), bigSep_singleton]
    rw [(arr_whole1 0).set_eq_univ, (arr_whole1 3).set_eq_univ]
    rw [show (pd1 V c).share 0 = fullShare.left from rfl, show (pd1 V c).share 1 = fullShare.right.left from rfl,
      show (pd1 V c).share 2 = fullShare.right.right from rfl, show (pd1 V c).share 3 = fullShare from rfl]
    rw [hrest main_v1 (by decide), ← hout]
    dsimp only
    rw [(pd1 V c).arrAt_in 0 rfl, (pd1 V c).arrAt_in 1 rfl, (pd1 V c).arrAt_in 2 rfl]
    refine (show iprop((((c : Thread nD τ).loc main_v1) ↦{fullShare.left} V c main_v1) ∗ (((c : Thread nD τ).loc main_v1) ↦{fullShare.right.left} V c main_v1)
        ∗ (((c : Thread nD τ).loc main_v1) ↦{fullShare.right.right} V c main_v1) ∗ (((c : Thread nD τ).loc main_v2) ↦{fullShare} (pd1 V c).arrAt 3 cfg1.N))
      ⊢ iprop((((c : Thread nD τ).loc main_v1) ↦{fullShare} V c main_v1) ∗ (((c : Thread nD τ).loc main_v2) ↦{fullShare} (pd1 V c).arrAt 3 cfg1.N)) from ?_)
    iintro ⟨Ha, Hb1, Hb2, H2⟩
    isplitl [Ha Hb1 Hb2]
    · iapply (pointsTo_share (PosShare.mem_left_op_right fullShare)).2
      isplitl [Ha]; · iexact Ha
      iapply (pointsTo_share (PosShare.mem_left_op_right fullShare.right)).2
      isplitl [Hb1] <;> iassumption
    iexact H2
  · unfold Pipeline.unscopedRest
    exact (bigSep_congr fun b hb => by
      rw [hrest b fun e => (Finset.mem_sdiff.mp hb).2 (e ▸ (by decide : main_v2 ∈ Finset.univ.image (Pipeline.arrRef spec1)))]).symm

/-! ## The proof data of the three calls and what rides beside the buffers -/

/-- No call has a prefetched table. -/
abbrev adm : (p : Fin 3) → (pcfgs (F := F) p).Adm := fun p => (cfgs p).toPCfg_adm
/-- Every call's proof data, each at the contents its call is entered from. -/
def pdats : (p : Fin 3) → (c : Dev nD) → Dat τ (Elt F) Unit ℕ (UR sig nD τ) ℕ (Pipeline.pin (pcfgs (F := F)) adm p) c
  | ⟨0, _⟩ => fun c => pd0 (V1 m ρ) c
  | ⟨1, _⟩ => fun c => pd1 (V2 m ρ) c
  | ⟨2, _⟩ => fun c => pd2 (V4 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state and its debts, none. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- The last contents, beside the generator register. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- The projection call: entered from the contents `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from the contents `W2`, left at `W3`; the projection split among its three input
    windows at the entry and rejoined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := enter1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := leave1 (V2 m ρ) (V3 m ρ) c (W3_out m ρ c).symm (fun b hb => W3_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The output-projection call: entered from the contents `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN: from any memory with zero counters every weakly fair execution of the main function on the cores terminates,
    nothing faulting, and every final memory holds every unscoped buffer at the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c =>
      (show iprop(StableHlo.held (c : Thread nD τ) (Pipeline.ucRefs τ sig) (W6 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- An unscoped reference of the main function is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Fold.lean ====
/-
  The fold of the buffers' contents through the main function, read at the references the three calls and the end
  use: the four arguments reach the end as launched (no item writes them); the projection call finds the activations
  reshaped to rows and the q/k/v weight as launched; the attention call finds the projection; the output-projection
  call finds the attention output, the output weight as launched and the bias reshaped to a row; the end holds the
  output projection reshaped to [16, 1024, 1024].
-/
import proofs.«132312_j85676007621236_2_alg».proof.Proof.K.Run
import Idealize.ShloMosaic.Lib.StableHlo.Run

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each reshape leaves alone -/

/-- The first reshape writes the activations' rows only. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second reshape writes the bias row only. -/
theorem W4_of_ne (c : Dev nD) (b : Ref sig .tc) (hb : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The last reshape writes the result only. -/
theorem W6_of_ne (c : Dev nD) (b : Ref sig .tc) (hb : b ≠ main_v5) :
    W6 m ρ c (Proc.devRef .tc b) = W5 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## The arguments up to each call -/

/-- The activations are as launched until the output-projection call is entered (only reshapes read them). -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

/-- The q/k/v weight is an input window's array of the projection call, which leaves it as entered. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) :=
        (W2_arr m ρ c 1).trans (((pd0 (V1 m ρ) c).arrAt_in 1 rfl _).trans (pd0_A (V1 m ρ) c 1))
    _ = W0 m ρ c (Proc.devRef .tc main_arg1) := W1_of_ne m ρ c main_arg1 (by decide)
    _ = m ((c : Thread nD τ).loc main_arg1) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-! ## What no item writes reaches the end as launched -/

theorem W6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = m ((c : Thread nD τ).loc main_arg0) := W3_arg0 m ρ c

theorem W6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = m ((c : Thread nD τ).loc main_arg1) := W3_arg1 m ρ c

/-- The output weight is an input window's array of the output-projection call, which leaves it as entered. -/
theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) :=
        (W5_arr m ρ c 1).trans (((pd2 (V4 m ρ) c).arrAt_in 1 rfl _).trans (pd2_A (V4 m ρ) c 1))
    _ = W3 m ρ c (Proc.devRef .tc main_arg2) := W4_of_ne m ρ c main_arg2 (by decide)
    _ = m ((c : Thread nD τ).loc main_arg2) := W3_arg2 m ρ c

theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = m ((c : Thread nD τ).loc main_arg3) := W3_arg3 m ρ c

/-! ## What each call finds and what the end holds -/

/-- The projection call finds the activations reshaped to rows, -/
theorem V1_v0 (c : Dev nD) :
    V1 m ρ c main_v0 = shapeCast S16384x1024 (m ((c : Thread nD τ).loc main_arg0)) shapeCasts_S16x1024x1024_S16384x1024 := by
  show StableHlo.after hostOps0 (W0 m ρ c) (Proc.devRef .tc main_v0) = _
  after_results
  rfl

/-- and the q/k/v weight as launched. -/
theorem V1_arg1 (c : Dev nD) : V1 m ρ c main_arg1 = m ((c : Thread nD τ).loc main_arg1) :=
  (W1_of_ne m ρ c main_arg1 (by decide)).trans rfl

/-- The attention call finds the projection the first call left. -/
theorem V2_v1 (c : Dev nD) : V2 m ρ c main_v1 = (pd0 (V1 m ρ) c).arrAt 2 cfg0.N := W2_arr m ρ c 2

/-- The output-projection call finds the attention output the second call left, -/
theorem V4_v2 (c : Dev nD) : V4 m ρ c main_v2 = (pd1 (V2 m ρ) c).arrAt 3 cfg1.N :=
  (W4_of_ne m ρ c main_v2 (by decide)).trans (W3_out m ρ c)

/-- the output weight as launched, -/
theorem V4_arg2 (c : Dev nD) : V4 m ρ c main_arg2 = m ((c : Thread nD τ).loc main_arg2) :=
  (W4_of_ne m ρ c main_arg2 (by decide)).trans (W3_arg2 m ρ c)

/-- and the bias reshaped to a row. -/
theorem V4_v3 (c : Dev nD) :
    V4 m ρ c main_v3 = shapeCast S1x1024 (m ((c : Thread nD τ).loc main_arg3)) shapeCasts_S1024_S1x1024 := by
  show StableHlo.after hostOps2 (W3 m ρ c) (Proc.devRef .tc main_v3) = _
  after_results
  rw [W3_arg3]
  rfl

/-- The end holds the output projection reshaped to [16, 1024, 1024]. -/
theorem W6_v5 (c : Dev nD) :
    W6 m ρ c (Proc.devRef .tc main_v5)
      = shapeCast S16x1024x1024 ((pd2 (V4 m ρ) c).arrAt 3 cfg2.N) shapeCasts_S16384x1024_S16x1024x1024 := by
  show StableHlo.after hostOps3 (W5 m ρ c) (Proc.devRef .tc main_v5) = _
  after_results
  rw [show W5 m ρ c (Proc.devRef .tc main_v4) = (pd2 (V4 m ρ) c).arrAt 3 cfg2.N from W5_arr m ρ c 3]
  rfl

end Cert.Kernel.Hand

end
-- ==== Proof.KI.Region0.lean ====
/-
  The first pallas_call (the q/k/v projection) on one core, at any float instance: what its body leaves in
  the output window's staging buffer at a grid point, as a function of the two input blocks it is handed, and the
  fact that the body, run on whole staging buffers holding those blocks, terminates without a fault and leaves exactly that.
  The grid has 3 x 32 points: point (j, i) reads rows 512 i .. 512 i + 511 of the activations (window 0), rows
  1024 j .. 1024 j + 1023 of the weight (window 1, moved only when j changes), and writes the 512 x 1024 block
  (i, j) of the projection (window 2).  Everything is stated at a parameter `V`, the contents of the core's
  buffers when the call is entered.
-/
import proofs.«132312_j85676007621236_2_alg».proof.Proof.Gen.KernelIdeal.Launch
import proofs.«132312_j85676007621236_2_alg».proof.Proof.Gen.KernelIdeal.Skeleton
import proofs.«132312_j85676007621236_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index did not move since the last fetch. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole 512 x 1024 rectangle of a staging buffer, and the whole 1024 x 1024 one. -/
abbrev whole512 : Rect S512x1024 := Rect.unit (s := S512x1024) ![0, 0] S512x1024.size inb_S512x1024_S512x1024_0_0
abbrev whole1024 : Rect S1024x1024 := Rect.unit (s := S1024x1024) ![0, 0] S1024x1024.size inb_S1024x1024_S1024x1024_0_0

/-- What the body leaves in the output window's buffer: its one store, of the product of the two loaded blocks. -/
def res0 (x0 : Vec F S512x1024 .f32) (x1 : Vec F S1024x1024 .f32) : Vec F S512x1024 .bf16 :=
  View.canon [⟨whole512, k0_pay1 (View.ld x0 whole512) (View.ld x1 whole1024)⟩]

/-- The one store covers the buffer. -/
theorem covers0 (p0 : Vec F S512x1024 .bf16) (y : S512x1024.Idx) :
    ∃ pc ∈ ([⟨whole512, p0⟩] : List (View.Piece (Elt F) S512x1024 .bf16)), y ∈ pc.1.set :=
  View.cover_of_tiled [⟨whole512, p0⟩] S512x1024.size (by rfl) y

set_option maxHeartbeats 1000000 in
/-- The body on whole staging buffers, the inputs' at `x0`, `x1` and the output's at anything, runs to the
    continuation with the inputs' unchanged and the output's at `res0 x0 x1`. -/
theorem body0_runs (c : Dev nD) (E : Set ℕ) (i : grid0.Coords) (arg2 : Memref sig .tc .vmem S512x1024 .f32) (harg2 : arg2.IsWhole)
    (arg3 : Memref sig .tc .vmem S1024x1024 .f32) (harg3 : arg3.IsWhole) (arg4 : Memref sig .tc .vmem S512x1024 .bf16) (harg4 : arg4.IsWhole)
    (x0 : Vec F S512x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (res0 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0 _)

/-- The proof data of the call on core `c`: the arrays as the call finds them; after the body at point `t` each input
    buffer at its block and the output buffer at `res0` of the two blocks; nothing else touched, nothing owed. -/
def pd0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem pd0_A (c : Dev nD) (w : Fin cfg0.W) : (pd0 V c).A w = V c (Pipeline.arrRef spec0 w) := by
  dsimp only [pd0]
theorem pd0_after0 (c : Dev nD) (t : Fin cfg0.N) : (pd0 V c).after 0 t = blk0 V c 0 t := by dsimp only [pd0]
theorem pd0_after1 (c : Dev nD) (t : Fin cfg0.N) : (pd0 V c).after 1 t = blk0 V c 1 t := by dsimp only [pd0]
theorem pd0_after2 (c : Dev nD) (t : Fin cfg0.N) : (pd0 V c).after 2 t = res0 (blk0 V c 0 t) (blk0 V c 1 t) := by dsimp only [pd0]
theorem pd0_before0 (c : Dev nD) (t : Fin cfg0.N) (d) : (pd0 V c).before 0 t d = blk0 V c 0 t :=
  held0_0 V (pd0 V c) (pd0_A V c 0) (pd0_after0 V c) t d
theorem pd0_before1 (c : Dev nD) (t : Fin cfg0.N) (d) : (pd0 V c).before 1 t d = blk0 V c 1 t :=
  held0_1 V (pd0 V c) (pd0_A V c 1) (pd0_after1 V c) t d

/-- What the body is called with at point `t`, the windows one by one, -/
def pre0 (c : Dev nD) (t : Fin cfg0.N) : sProp 𝕄 :=
  iprop((pd0 V c).Φ t.castSucc ∗ (pd0 V c).owesAt () t.castSucc
    ∗ (∃ d, owns (c : Thread nD τ) (st0_0 t) fullShare ((pd0 V c).before 0 t d))
    ∗ (∃ d, owns (c : Thread nD τ) (st0_1 t) fullShare ((pd0 V c).before 1 t d))
    ∗ (∃ d, owns (c : Thread nD τ) (st0_2 t) fullShare ((pd0 V c).before 2 t d)))

/-- and what it returns. -/
def post0 (c : Dev nD) (t : Fin cfg0.N) : sProp 𝕄 :=
  iprop((pd0 V c).Φ t.succ ∗ (pd0 V c).owesAt () t.succ
    ∗ owns (c : Thread nD τ) (st0_0 t) fullShare ((pd0 V c).after 0 t)
    ∗ owns (c : Thread nD τ) (st0_1 t) fullShare ((pd0 V c).after 1 t)
    ∗ owns (c : Thread nD τ) (st0_2 t) fullShare ((pd0 V c).after 2 t))

theorem point0_runs (c : Dev nD) (t : Fin cfg0.N) :
    pre0 V c t ⊢ wp frame (wpE (defs₀ (F := F)) Variants.none c none) Set.univ (bodyAt0 t) (fun _ => post0 V c t) := by
  unfold pre0 post0 bodyAt0
  simp only [pd0_before0, pd0_before1]
  rw [show (pd0 V c).Φ t.succ = (pd0 V c).Φ t.castSucc from rfl,
    show (pd0 V c).owesAt () t.succ = (pd0 V c).owesAt () t.castSucc from rfl,
    pd0_after0, pd0_after1, pd0_after2]
  iintro ⟨HΦ, Ho, ⟨%d0, H0⟩, ⟨%d1, H1⟩, ⟨%d2, H2⟩⟩
  iapply (body0_runs c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the call, at every point. -/
theorem obligation0 (c : Dev nD) : BodyObligation (pd0 (F := F) V c) (defs₀ (F := F)) Variants.none () Set.univ := fun t => by
  rw [bigSep_W0, bigSep_W0]
  exact point0_runs V c t

end Cert.KernelIdeal.Hand

end
-- ==== Proof.KI.Region1.lean ====
/-
  The second pallas_call (softmax attention, two heads per grid point) on one core, at any float instance: what its
  body leaves in the output window's staging buffer at a grid point, as a function of the three input blocks, and the
  fact that the body run on whole staging buffers holding those blocks terminates without a fault and leaves exactly that.
  The grid has 16 x 8 x 4 points: point (b, h2, nt) reads the 256 query rows (4 b + nt) of lane strip h2 (window 0), the
  1024 key rows of batch b in strip 8 + h2 (window 1) and the 1024 value rows in strip 16 + h2 (window 2) — three
  windows on ONE array, the projection — and writes the 256 x 128 block ((4 b + nt), h2) of the attention output
  (window 3) by two stores, lanes 0..63 (the strip's first head) and lanes 64..127 (its second).
  Stated at a parameter `V`, the contents of the core's buffers when the call is entered.
-/
import proofs.«132312_j85676007621236_2_alg».proof.Proof.Gen.KernelIdeal.Launch
import proofs.«132312_j85676007621236_2_alg».proof.Proof.Gen.KernelIdeal.Skeleton
import proofs.«132312_j85676007621236_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole rectangles of the query and key/value staging buffers, and the two lane halves of the output's. -/
abbrev queryRect : Rect S256x128 := Rect.unit (s := S256x128) ![0, 0] S256x128.size inb_S256x128_S256x128_0_0
abbrev keyRect : Rect S1024x128 := Rect.unit (s := S1024x128) ![0, 0] S1024x128.size inb_S1024x128_S1024x128_0_0
abbrev lanesLo : Rect S256x128 := Rect.unit (s := S256x128) ![0, 0] S256x64.size inb_S256x128_S256x64_0_0
abbrev lanesHi : Rect S256x128 := Rect.unit (s := S256x128) ![0, 64] S256x64.size inb_S256x128_S256x64_0_64

/-- What the body leaves in the output window's buffer: its two stores, the later one first. -/
def res1 (x0 : Vec F S256x128 .bf16) (x1 x2 : Vec F S1024x128 .bf16) : Vec F S256x128 .bf16 :=
  View.canon [⟨lanesHi, k1_pay1 (k1_pay6 (View.ld x2 keyRect)) (k1_pay7 (View.ld x0 queryRect) (View.ld x1 keyRect)) (k1_pay8 (View.ld x0 queryRect) (View.ld x1 keyRect))⟩,
    ⟨lanesLo, k1_pay5 (View.ld x0 queryRect) (View.ld x1 keyRect) (View.ld x2 keyRect)⟩]

/-- The two stores tile the buffer. -/
theorem covers1 (p0 p1 : Vec F S256x64 .bf16) (y : S256x128.Idx) :
    ∃ pc ∈ ([⟨lanesHi, p0⟩, ⟨lanesLo, p1⟩] : List (View.Piece (Elt F) S256x128 .bf16)), y ∈ pc.1.set :=
  View.cover_of_tiled [⟨lanesHi, p0⟩, ⟨lanesLo, p1⟩] S256x64.size (by rfl) y

set_option maxHeartbeats 1000000 in
/-- The body on whole staging buffers, the inputs' at `x0`, `x1`, `x2` and the output's at anything, runs to the
    continuation with the inputs' unchanged and the output's at `res1 x0 x1 x2`. -/
theorem body1_runs (c : Dev nD) (E : Set ℕ) (i : grid1.Coords) (arg3 : Memref sig .tc .vmem S256x128 .bf16) (harg3 : arg3.IsWhole)
    (arg4 : Memref sig .tc .vmem S1024x128 .bf16) (harg4 : arg4.IsWhole) (arg5 : Memref sig .tc .vmem S1024x128 .bf16) (harg5 : arg5.IsWhole)
    (arg6 : Memref sig .tc .vmem S256x128 .bf16) (harg6 : arg6.IsWhole)
    (x0 : Vec F S256x128 .bf16) (x1 x2 : Vec F S1024x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (res1 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _ _)

/-- The proof data of the call on core `c`: the three input windows hold their one array at a third of it each
    (a half, and the two halves of the other half), so that the three shares make the whole. -/
def pd1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => res1 (blk1 V c 0 t) (blk1 V c 1 t) (blk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem pd1_A (c : Dev nD) (w : Fin cfg1.W) : (pd1 V c).A w = V c (Pipeline.arrRef spec1 w) := by
  dsimp only [pd1]
theorem pd1_after0 (c : Dev nD) (t : Fin cfg1.N) : (pd1 V c).after 0 t = blk1 V c 0 t := by dsimp only [pd1]
theorem pd1_after1 (c : Dev nD) (t : Fin cfg1.N) : (pd1 V c).after 1 t = blk1 V c 1 t := by dsimp only [pd1]
theorem pd1_after2 (c : Dev nD) (t : Fin cfg1.N) : (pd1 V c).after 2 t = blk1 V c 2 t := by dsimp only [pd1]
theorem pd1_after3 (c : Dev nD) (t : Fin cfg1.N) :
    (pd1 V c).after 3 t = res1 (blk1 V c 0 t) (blk1 V c 1 t) (blk1 V c 2 t) := by dsimp only [pd1]
theorem pd1_before0 (c : Dev nD) (t : Fin cfg1.N) (d) : (pd1 V c).before 0 t d = blk1 V c 0 t :=
  held1_0 V (pd1 V c) (pd1_A V c 0) (pd1_after0 V c) t d
theorem pd1_before1 (c : Dev nD) (t : Fin cfg1.N) (d) : (pd1 V c).before 1 t d = blk1 V c 1 t :=
  held1_1 V (pd1 V c) (pd1_A V c 1) (pd1_after1 V c) t d
theorem pd1_before2 (c : Dev nD) (t : Fin cfg1.N) (d) : (pd1 V c).before 2 t d = blk1 V c 2 t :=
  held1_2 V (pd1 V c) (pd1_A V c 2) (pd1_after2 V c) t d

/-- What the body is called with at point `t`, the windows one by one, -/
def pre1 (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d))
    ∗ (∃ d, owns (c : Thread nD τ) (st1_3 t) fullShare ((pd1 V c).before 3 t d)))

/-- and what it returns. -/
def post1 (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t)
    ∗ owns (c : Thread nD τ) (st1_3 t) fullShare ((pd1 V c).after 3 t))

theorem point1_runs (c : Dev nD) (t : Fin cfg1.N) :
    pre1 V c t ⊢ wp frame (wpE (defs₀ (F := F)) Variants.none c none) Set.univ (bodyAt1 t) (fun _ => post1 V c t) := by
  unfold pre1 post1 bodyAt1
  simp only [pd1_before0, pd1_before1, pd1_before2]
  rw [show (pd1 V c).Φ t.succ = (pd1 V c).Φ t.castSucc from rfl,
    show (pd1 V c).owesAt () t.succ = (pd1 V c).owesAt () t.castSucc from rfl,
    pd1_after0, pd1_after1, pd1_after2, pd1_after3]
  iintro ⟨HΦ, Ho, ⟨%d0, H0⟩, ⟨%d1, H1⟩, ⟨%d2, H2⟩, ⟨%d3, H3⟩⟩
  iapply (body1_runs c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem obligation1 (c : Dev nD) : BodyObligation (pd1 (F := F) V c) (defs₀ (F := F)) Variants.none () Set.univ := fun t => by
  rw [bigSep_W1, bigSep_W1]
  exact point1_runs V c t

end Cert.KernelIdeal.Hand

end
-- ==== Proof.KI.Region2.lean ====
/-
  The third pallas_call (the output projection with its bias) on one core, at any float instance: what its body leaves
  in the output window's staging buffer at a grid point, as a function of the three input blocks, and the fact that the
  body run on whole staging buffers holding those blocks terminates without a fault and leaves exactly that.
  The grid has 1 x 32 points: point (0, i) reads rows 512 i .. 512 i + 511 of the attention output (window 0), the whole
  output weight (window 1) and the bias row (window 2), both fetched once, and writes rows 512 i .. of the result
  (window 3).  Stated at a parameter `V`, the contents of the core's buffers when the call is entered.
-/
import proofs.«132312_j85676007621236_2_alg».proof.Proof.Gen.KernelIdeal.Launch
import proofs.«132312_j85676007621236_2_alg».proof.Proof.Gen.KernelIdeal.Skeleton
import proofs.«132312_j85676007621236_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem held2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem held2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole rectangles of the three kinds of staging buffer. -/
abbrev rows512 : Rect S512x1024 := Rect.unit (s := S512x1024) ![0, 0] S512x1024.size inb_S512x1024_S512x1024_0_0
abbrev square1024 : Rect S1024x1024 := Rect.unit (s := S1024x1024) ![0, 0] S1024x1024.size inb_S1024x1024_S1024x1024_0_0
abbrev row1 : Rect S1x1024 := Rect.unit (s := S1x1024) ![0, 0] S1x1024.size inb_S1x1024_S1x1024_0_0

/-- What the body leaves in the output window's buffer: its one store. -/
def res2 (x0 : Vec F S512x1024 .bf16) (x1 : Vec F S1024x1024 .f32) (x2 : Vec F S1x1024 .f32) : Vec F S512x1024 .f32 :=
  View.canon [⟨rows512, k2_pay1 (View.ld x0 rows512) (View.ld x1 square1024) (View.ld x2 row1)⟩]

/-- The one store covers the buffer. -/
theorem covers2 (p0 : Vec F S512x1024 .f32) (y : S512x1024.Idx) :
    ∃ pc ∈ ([⟨rows512, p0⟩] : List (View.Piece (Elt F) S512x1024 .f32)), y ∈ pc.1.set :=
  View.cover_of_tiled [⟨rows512, p0⟩] S512x1024.size (by rfl) y

set_option maxHeartbeats 1000000 in
/-- The body on whole staging buffers, the inputs' at `x0`, `x1`, `x2` and the output's at anything, runs to the
    continuation with the inputs' unchanged and the output's at `res2 x0 x1 x2`. -/
theorem body2_runs (c : Dev nD) (E : Set ℕ) (i : grid2.Coords) (arg2 : Memref sig .tc .vmem S512x1024 .bf16) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S512x1024 .f32) (harg5 : arg5.IsWhole)
    (x0 : Vec F S512x1024 .bf16) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (res2 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-- The proof data of the call on core `c`. -/
def pd2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => res2 (blk2 V c 0 t) (blk2 V c 1 t) (blk2 V c 2 t)
  Φ _ := Pipeline.ΦA spec2 c
  q _ := fullShare
  owed _ := 0

theorem pd2_A (c : Dev nD) (w : Fin cfg2.W) : (pd2 V c).A w = V c (Pipeline.arrRef spec2 w) := by
  dsimp only [pd2]
theorem pd2_after0 (c : Dev nD) (t : Fin cfg2.N) : (pd2 V c).after 0 t = blk2 V c 0 t := by dsimp only [pd2]
theorem pd2_after1 (c : Dev nD) (t : Fin cfg2.N) : (pd2 V c).after 1 t = blk2 V c 1 t := by dsimp only [pd2]
theorem pd2_after2 (c : Dev nD) (t : Fin cfg2.N) : (pd2 V c).after 2 t = blk2 V c 2 t := by dsimp only [pd2]
theorem pd2_after3 (c : Dev nD) (t : Fin cfg2.N) :
    (pd2 V c).after 3 t = res2 (blk2 V c 0 t) (blk2 V c 1 t) (blk2 V c 2 t) := by dsimp only [pd2]
theorem pd2_before0 (c : Dev nD) (t : Fin cfg2.N) (d) : (pd2 V c).before 0 t d = blk2 V c 0 t :=
  held2_0 V (pd2 V c) (pd2_A V c 0) (pd2_after0 V c) t d
theorem pd2_before1 (c : Dev nD) (t : Fin cfg2.N) (d) : (pd2 V c).before 1 t d = blk2 V c 1 t :=
  held2_1 V (pd2 V c) (pd2_A V c 1) (pd2_after1 V c) t d
theorem pd2_before2 (c : Dev nD) (t : Fin cfg2.N) (d) : (pd2 V c).before 2 t d = blk2 V c 2 t :=
  held2_2 V (pd2 V c) (pd2_A V c 2) (pd2_after2 V c) t d

/-- What the body is called with at point `t`, the windows one by one, -/
def pre2 (c : Dev nD) (t : Fin cfg2.N) : sProp 𝕄 :=
  iprop((pd2 V c).Φ t.castSucc ∗ (pd2 V c).owesAt () t.castSucc
    ∗ (∃ d, owns (c : Thread nD τ) (st2_0 t) fullShare ((pd2 V c).before 0 t d))
    ∗ (∃ d, owns (c : Thread nD τ) (st2_1 t) fullShare ((pd2 V c).before 1 t d))
    ∗ (∃ d, owns (c : Thread nD τ) (st2_2 t) fullShare ((pd2 V c).before 2 t d))
    ∗ (∃ d, owns (c : Thread nD τ) (st2_3 t) fullShare ((pd2 V c).before 3 t d)))

/-- and what it returns. -/
def post2 (c : Dev nD) (t : Fin cfg2.N) : sProp 𝕄 :=
  iprop((pd2 V c).Φ t.succ ∗ (pd2 V c).owesAt () t.succ
    ∗ owns (c : Thread nD τ) (st2_0 t) fullShare ((pd2 V c).after 0 t)
    ∗ owns (c : Thread nD τ) (st2_1 t) fullShare ((pd2 V c).after 1 t)
    ∗ owns (c : Thread nD τ) (st2_2 t) fullShare ((pd2 V c).after 2 t)
    ∗ owns (c : Thread nD τ) (st2_3 t) fullShare ((pd2 V c).after 3 t))

theorem point2_runs (c : Dev nD) (t : Fin cfg2.N) :
    pre2 V c t ⊢ wp frame (wpE (defs₀ (F := F)) Variants.none c none) Set.univ (bodyAt2 t) (fun _ => post2 V c t) := by
  unfold pre2 post2 bodyAt2
  simp only [pd2_before0, pd2_before1, pd2_before2]
  rw [show (pd2 V c).Φ t.succ = (pd2 V c).Φ t.castSucc from rfl,
    show (pd2 V c).owesAt () t.succ = (pd2 V c).owesAt () t.castSucc from rfl,
    pd2_after0, pd2_after1, pd2_after2, pd2_after3]
  iintro ⟨HΦ, Ho, ⟨%d0, H0⟩, ⟨%d1, H1⟩, ⟨%d2, H2⟩, ⟨%d3, H3⟩⟩
  iapply (body2_runs c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem obligation2 (c : Dev nD) : BodyObligation (pd2 (F := F) V c) (defs₀ (F := F)) Variants.none () Set.univ := fun t => by
  rw [bigSep_W2, bigSep_W2]
  exact point2_runs V c t

end Cert.KernelIdeal.Hand

end
-- ==== Proof.KI.Run.lean ====
/-
  The program as a whole on every core, at any float instance: the contents of the core's buffers between the six
  items of the main function (reshape the activations; the projection call; the attention call; reshape the bias; the
  output-projection call; reshape the result) as a fold from the launch memory, the three calls as segments entered
  from and left at those contents, and the run: every weakly fair execution terminates without a fault, and every
  final memory holds each buffer of the main function at the last contents of the fold.
  The attention call hands ONE array, the projection, to three input windows: at its entry the array's full ownership
  is split into a half and two quarters, one per window, and rejoined at its exit.
-/
import proofs.«132312_j85676007621236_2_alg».proof.Proof.KI.Region0
import proofs.«132312_j85676007621236_2_alg».proof.Proof.KI.Region1
import proofs.«132312_j85676007621236_2_alg».proof.Proof.KI.Region2

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch, and after the activations are reshaped to rows. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the projection call: its arrays at what its write-backs leave, every other buffer as entered. -/
def W2 (c : Dev nD) : Valuation τ sig (Elt F) :=
  Pipeline.withArrays spec0 c (W1 m ρ c) fun w => (pd0 (V1 m ρ) c).arrAt w cfg0.N
theorem W2_arr (c : Dev nD) (w : Fin cfg0.W) :
    W2 m ρ c (Proc.devRef .tc (Pipeline.arrRef spec0 w)) = (pd0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0 (c : Dev nD) (w : Fin cfg0.W) : (pd0 (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention call: its output array at what its write-backs leave, every other buffer as entered (its
    three input windows read one array and change nothing). -/
def W3 (c : Dev nD) : Valuation τ sig (Elt F) :=
  Function.update (W2 m ρ c) (Proc.devRef .tc main_v2) ((pd1 (V2 m ρ) c).arrAt 3 cfg1.N)
abbrev V3 : (c : Dev nD) → (b : Ref sig .tc) → Buf (Elt F) ((c : Thread nD τ).loc b) := fun c b => W3 m ρ c b
theorem W3_out (c : Dev nD) : W3 m ρ c (Proc.devRef .tc main_v2) = (pd1 (V2 m ρ) c).arrAt 3 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..

/-- After the bias is reshaped to a row. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After the output-projection call. -/
def W5 (c : Dev nD) : Valuation τ sig (Elt F) :=
  Pipeline.withArrays spec2 c (W4 m ρ c) fun w => (pd2 (V4 m ρ) c).arrAt w cfg2.N
theorem W5_arr (c : Dev nD) (w : Fin cfg2.W) :
    W5 m ρ c (Proc.devRef .tc (Pipeline.arrRef spec2 w)) = (pd2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem left2 (c : Dev nD) (w : Fin cfg2.W) : (pd2 (V4 m ρ) c).arrAt w cfg2.N = V5 m ρ c (Pipeline.arrRef spec2 w) :=
  (W5_arr m ρ c w).symm
theorem kept2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the result is reshaped: the end. -/
abbrev W6 : Dev nD → Valuation τ sig (Elt F) := fun c => StableHlo.after hostOps3 (W5 m ρ c)

/-! ## One array for three windows: splitting and rejoining its ownership -/

/-- At the attention call's entry the core's unscoped buffers are the call's arrays at the entry contents — the
    projection's full ownership split into a half and two quarters for the three windows that read it — and the rest. -/
theorem enter1 (V : (c : Dev nD) → (b : Ref sig .tc) → Buf (Elt F) ((c : Thread nD τ).loc b)) (c : Dev nD) :
    (unscopedBufs c (V c) : sProp 𝕄) ⊢ iprop((pd1 V c).arrays ((pd1 V c).arrAt · 0) ∗ Pipeline.unscopedRest spec1 c (V c)) := by
  rw [Pipeline.unscopedBufs_split₀ cfgs 1 (fun w => by revert w; decide) c (V c)]
  refine sep_mono ?_ .rfl
  unfold Pipeline.arrBufs Dat.arrays
  rw [bigSep_W1]
  rw [show Finset.image (Pipeline.arrRef (cfgs 1).spec) Finset.univ = ({main_v1, main_v2} : Finset (Ref sig .tc)) from by decide]
  rw [bigSep_insert (by decide), bigSep_singleton]
  rw [(arr_whole1 0).set_eq_univ, (arr_whole1 3).set_eq_univ]
  rw [show (pd1 V c).share 0 = fullShare.left from rfl, show (pd1 V c).share 1 = fullShare.right.left from rfl,
    show (pd1 V c).share 2 = fullShare.right.right from rfl, show (pd1 V c).share 3 = fullShare from rfl]
  refine (show iprop((((c : Thread nD τ).loc main_v1) ↦{fullShare} V c main_v1) ∗ (((c : Thread nD τ).loc main_v2) ↦{fullShare} V c main_v2)) ⊢ _ from ?_)
  iintro ⟨H1, H2⟩
  ihave H1' := (pointsTo_share (PosShare.mem_left_op_right fullShare)).1 $$ H1
  icases H1' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H2

/-- At its exit the three shares rejoin: the call's arrays at their final contents and the rest are the core's
    unscoped buffers at any contents that have the attention output at what the call left and agree elsewhere. -/
theorem leave1 (V V' : (c : Dev nD) → (b : Ref sig .tc) → Buf (Elt F) ((c : Thread nD τ).loc b)) (c : Dev nD)
    (hout : (pd1 V c).arrAt 3 cfg1.N = V' c main_v2) (hrest : ∀ b, b ≠ main_v2 → V' c b = V c b) :
    iprop((pd1 V c).arrays ((pd1 V c).arrAt · cfg1.N) ∗ Pipeline.unscopedRest spec1 c (V c)) ⊢ (unscopedBufs c (V' c) : sProp 𝕄) := by
  rw [Pipeline.unscopedBufs_split₀ cfgs 1 (fun w => by revert w; decide) c (V' c)]
  refine sep_mono ?_ (Entails.of_eq ?_)
  · unfold Pipeline.arrBufs Dat.arrays
    rw [bigSep_W1]
    rw [show Finset.image (Pipeline.arrRef (cfgs 1).spec) Finset.univ = ({main_v1, main_v2} : Finset (Ref sig .tc)) from by decide]
    rw [bigSep_insert (by decide), bigSep_singleton]
    rw [(arr_whole1 0).set_eq_univ, (arr_whole1 3).set_eq_univ]
    rw [show (pd1 V c).share 0 = fullShare.left from rfl, show (pd1 V c).share 1 = fullShare.right.left from rfl,
      show (pd1 V c).share 2 = fullShare.right.right from rfl, show (pd1 V c).share 3 = fullShare from rfl]
    rw [hrest main_v1 (by decide), ← hout]
    dsimp only
    rw [(pd1 V c).arrAt_in 0 rfl, (pd1 V c).arrAt_in 1 rfl, (pd1 V c).arrAt_in 2 rfl]
    refine (show iprop((((c : Thread nD τ).loc main_v1) ↦{fullShare.left} V c main_v1) ∗ (((c : Thread nD τ).loc main_v1) ↦{fullShare.right.left} V c main_v1)
        ∗ (((c : Thread nD τ).loc main_v1) ↦{fullShare.right.right} V c main_v1) ∗ (((c : Thread nD τ).loc main_v2) ↦{fullShare} (pd1 V c).arrAt 3 cfg1.N))
      ⊢ iprop((((c : Thread nD τ).loc main_v1) ↦{fullShare} V c main_v1) ∗ (((c : Thread nD τ).loc main_v2) ↦{fullShare} (pd1 V c).arrAt 3 cfg1.N)) from ?_)
    iintro ⟨Ha, Hb1, Hb2, H2⟩
    isplitl [Ha Hb1 Hb2]
    · iapply (pointsTo_share (PosShare.mem_left_op_right fullShare)).2
      isplitl [Ha]; · iexact Ha
      iapply (pointsTo_share (PosShare.mem_left_op_right fullShare.right)).2
      isplitl [Hb1] <;> iassumption
    iexact H2
  · unfold Pipeline.unscopedRest
    exact (bigSep_congr fun b hb => by
      rw [hrest b fun e => (Finset.mem_sdiff.mp hb).2 (e ▸ (by decide : main_v2 ∈ Finset.univ.image (Pipeline.arrRef spec1)))]).symm

/-! ## The proof data of the three calls and what rides beside the buffers -/

/-- No call has a prefetched table. -/
abbrev adm : (p : Fin 3) → (pcfgs (F := F) p).Adm := fun p => (cfgs p).toPCfg_adm
/-- Every call's proof data, each at the contents its call is entered from. -/
def pdats : (p : Fin 3) → (c : Dev nD) → Dat τ (Elt F) Unit ℕ (UR sig nD τ) ℕ (Pipeline.pin (pcfgs (F := F)) adm p) c
  | ⟨0, _⟩ => fun c => pd0 (V1 m ρ) c
  | ⟨1, _⟩ => fun c => pd1 (V2 m ρ) c
  | ⟨2, _⟩ => fun c => pd2 (V4 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state and its debts, none. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- The last contents, beside the generator register. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- The projection call: entered from the contents `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from the contents `W2`, left at `W3`; the projection split among its three input
    windows at the entry and rejoined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := enter1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := leave1 (V2 m ρ) (V3 m ρ) c (W3_out m ρ c).symm (fun b hb => W3_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The output-projection call: entered from the contents `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN: from any memory with zero counters every weakly fair execution of the main function on the cores terminates,
    nothing faulting, and every final memory holds every unscoped buffer at the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c =>
      (show iprop(StableHlo.held (c : Thread nD τ) (Pipeline.ucRefs τ sig) (W6 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- An unscoped reference of the main function is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Fold.lean ====
/-
  The fold of the buffers' contents through the main function, read at the references the three calls and the end
  use: the four arguments reach the end as launched (no item writes them); the projection call finds the activations
  reshaped to rows and the q/k/v weight as launched; the attention call finds the projection; the output-projection
  call finds the attention output, the output weight as launched and the bias reshaped to a row; the end holds the
  output projection reshaped to [16, 1024, 1024].
-/
import proofs.«132312_j85676007621236_2_alg».proof.Proof.KI.Run
import Idealize.ShloMosaic.Lib.StableHlo.Run

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each reshape leaves alone -/

/-- The first reshape writes the activations' rows only. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second reshape writes the bias row only. -/
theorem W4_of_ne (c : Dev nD) (b : Ref sig .tc) (hb : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The last reshape writes the result only. -/
theorem W6_of_ne (c : Dev nD) (b : Ref sig .tc) (hb : b ≠ main_v5) :
    W6 m ρ c (Proc.devRef .tc b) = W5 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## The arguments up to each call -/

/-- The activations are as launched until the output-projection call is entered (only reshapes read them). -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

/-- The q/k/v weight is an input window's array of the projection call, which leaves it as entered. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) :=
        (W2_arr m ρ c 1).trans (((pd0 (V1 m ρ) c).arrAt_in 1 rfl _).trans (pd0_A (V1 m ρ) c 1))
    _ = W0 m ρ c (Proc.devRef .tc main_arg1) := W1_of_ne m ρ c main_arg1 (by decide)
    _ = m ((c : Thread nD τ).loc main_arg1) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-! ## What no item writes reaches the end as launched -/

theorem W6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = m ((c : Thread nD τ).loc main_arg0) := W3_arg0 m ρ c

theorem W6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = m ((c : Thread nD τ).loc main_arg1) := W3_arg1 m ρ c

/-- The output weight is an input window's array of the output-projection call, which leaves it as entered. -/
theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) :=
        (W5_arr m ρ c 1).trans (((pd2 (V4 m ρ) c).arrAt_in 1 rfl _).trans (pd2_A (V4 m ρ) c 1))
    _ = W3 m ρ c (Proc.devRef .tc main_arg2) := W4_of_ne m ρ c main_arg2 (by decide)
    _ = m ((c : Thread nD τ).loc main_arg2) := W3_arg2 m ρ c

theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = m ((c : Thread nD τ).loc main_arg3) := W3_arg3 m ρ c

/-! ## What each call finds and what the end holds -/

/-- The projection call finds the activations reshaped to rows, -/
theorem V1_v0 (c : Dev nD) :
    V1 m ρ c main_v0 = shapeCast S16384x1024 (m ((c : Thread nD τ).loc main_arg0)) shapeCasts_S16x1024x1024_S16384x1024 := by
  show StableHlo.after hostOps0 (W0 m ρ c) (Proc.devRef .tc main_v0) = _
  after_results
  rfl

/-- and the q/k/v weight as launched. -/
theorem V1_arg1 (c : Dev nD) : V1 m ρ c main_arg1 = m ((c : Thread nD τ).loc main_arg1) :=
  (W1_of_ne m ρ c main_arg1 (by decide)).trans rfl

/-- The attention call finds the projection the first call left. -/
theorem V2_v1 (c : Dev nD) : V2 m ρ c main_v1 = (pd0 (V1 m ρ) c).arrAt 2 cfg0.N := W2_arr m ρ c 2

/-- The output-projection call finds the attention output the second call left, -/
theorem V4_v2 (c : Dev nD) : V4 m ρ c main_v2 = (pd1 (V2 m ρ) c).arrAt 3 cfg1.N :=
  (W4_of_ne m ρ c main_v2 (by decide)).trans (W3_out m ρ c)

/-- the output weight as launched, -/
theorem V4_arg2 (c : Dev nD) : V4 m ρ c main_arg2 = m ((c : Thread nD τ).loc main_arg2) :=
  (W4_of_ne m ρ c main_arg2 (by decide)).trans (W3_arg2 m ρ c)

/-- and the bias reshaped to a row. -/
theorem V4_v3 (c : Dev nD) :
    V4 m ρ c main_v3 = shapeCast S1x1024 (m ((c : Thread nD τ).loc main_arg3)) shapeCasts_S1024_S1x1024 := by
  show StableHlo.after hostOps2 (W3 m ρ c) (Proc.devRef .tc main_v3) = _
  after_results
  rw [W3_arg3]
  rfl

/-- The end holds the output projection reshaped to [16, 1024, 1024]. -/
theorem W6_v5 (c : Dev nD) :
    W6 m ρ c (Proc.devRef .tc main_v5)
      = shapeCast S16x1024x1024 ((pd2 (V4 m ρ) c).arrAt 3 cfg2.N) shapeCasts_S16384x1024_S16x1024x1024 := by
  show StableHlo.after hostOps3 (W5 m ρ c) (Proc.devRef .tc main_v5) = _
  after_results
  rw [show W5 m ρ c (Proc.devRef .tc main_v4) = (pd2 (V4 m ρ) c).arrAt 3 cfg2.N from W5_arr m ρ c 3]
  rfl

end Cert.KernelIdeal.Hand

end
-- ==== Proof.LibMatmulNT.lean ====
/-
  A matrix product with both operands contracted along their second axis, read at an entry: for an `[n, K]` matrix
  and an `[m, K]` matrix (dimension numbers: contracting axes [1] and [1], non-contracting axes [0] and [0], no batch
  axes) accumulated into zero, entry `(p, c)` of the `[n, m]` result is the sum over `k` of
  `lhs (p, k) * rhs (c, k)`, at the exact values. The dimension numbers enter only through four facts about where the
  operand indices come from: each operand's row from the result's row, resp. column, and each operand's column from
  the contraction position.
-/
import Idealize.ShloMosaic.Lib.ValueIdx
import Idealize.ShloMosaic.PureOps.Ideal.Laws

noncomputable section

namespace Cert.PlainDotNT

open Idealize.ShloMosaic Idealize.ShloMosaic.ValueIdx

/-- Rows against rows: for an `[n, K]` matrix and an `[m, K]` matrix, both contracted along their second axis,
    accumulated into zero, entry `(p, c)` is `∑ k, lhs (p, k) * rhs (c, k)`. The dimension numbers enter only through
    four facts about where the operand indices come from. -/
theorem matmul_rows_rows_zero_apply {n K m : ℕ} {φ₁ φ₂ : FTy}
    (D : DotDims ⟨2, ![n, K]⟩ ⟨2, ![m, K]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![n, K]⟩ φ₁) (rhs : FVec Ideal ⟨2, ![m, K]⟩ φ₂) (p : Fin n) (c : Fin m) :
    matmul D prec lhs rhs (constant ⟨2, ![n, m]⟩ .f32 0x00000000#32) (ix2 p c)
      = ∑ k : Fin K, lhs (ix2 p k) * rhs (ix2 c k) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.PlainDotNT

end
-- ==== Proof.Val.MatmulPayload.lean ====
/-
  The two projection blocks read at an entry, over the extended reals.

  Both blocks multiply a [512, 1024] block of rows by the rows of a [1024, 1024] weight (each operand is contracted
  along its second axis) into a zero accumulator: entry (p, q) is the sum over k of lhs (p, k) * rhs (q, k). Every
  format change is the identity on the values, a shape cast to the same shape is the identity, and the second block
  adds the one bias row, broadcast over the 512 rows.
-/
import proofs.«132312_j85676007621236_2_alg».proof.Proof.Gen.KernelIdeal.Skeleton
import proofs.«132312_j85676007621236_2_alg».proof.Proof.LibMatmulNT
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The dimension record of the two blocks' product -/

theorem dotP_lhs0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

theorem dotP_lhs1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q

theorem dotP_rhs0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

theorem dotP_rhs1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The blocks' product into zero at `(p, q)`: the sum over `k` of `lhs (p, k) * rhs (q, k)`. -/
theorem dotP_zero_apply {φ₁ φ₂ : FTy} (lhs : FVec Ideal S512x1024 φ₁) (rhs : FVec Ideal S1024x1024 φ₂)
    (p : Fin 512) (q : Fin 1024) :
    matmul dot_S512x1024_S1024x1024_S512x1024_1_1_0_0_n_n none lhs rhs (constant S512x1024 .f32 0x00000000#32) (ix2 p q)
      = ∑ k : Fin 1024, lhs (ix2 p k) * rhs (ix2 q k) :=
  Cert.PlainDotNT.matmul_rows_rows_zero_apply dot_S512x1024_S1024x1024_S512x1024_1_1_0_0_n_n none rfl rfl
    dotP_lhs0 dotP_lhs1 dotP_rhs0 dotP_rhs1 lhs rhs p q

/-! ## The two blocks -/

/-- The q/k/v projection block at `(p, q)`: row `p` of the activations against row `q` of the weight. -/
theorem proj_block_at (v0 : Vec Ideal S512x1024 .f32) (v3 : Vec Ideal S1024x1024 .f32) (p : Fin 512) (q : Fin 1024) :
    k0_pay1 (F := Ideal) v0 v3 (ix2 p q) = ∑ k : Fin 1024, v0 (ix2 p k) * v3 (ix2 q k) := by
  unfold k0_pay1
  rw [shapeCast_self]
  exact dotP_zero_apply (truncf .bf16 v0 bitsLt_bf16_f32) (truncf .bf16 v3 bitsLt_bf16_f32) p q

/-- The output projection block at `(p, q)`: row `p` of the heads against row `q` of the weight, plus the bias at `q`. -/
theorem out_block_at (v0 : Vec Ideal S512x1024 .bf16) (v2 : Vec Ideal S1024x1024 .f32) (v5 : Vec Ideal S1x1024 .f32)
    (p : Fin 512) (q : Fin 1024) :
    k2_pay1 (F := Ideal) v0 v2 v5 (ix2 p q)
      = (∑ k : Fin 1024, v0 (ix2 p k) * v2 (ix2 q k)) + v5 (ix2 (0 : Fin 1) q) := by
  unfold k2_pay1
  rw [shapeCast_self, shapeCast_self]
  refine (addf_apply _ _ _).trans ?_
  refine congrArg₂ (· + ·) ?_ ?_
  · exact dotP_zero_apply v0 (truncf .bf16 v2 bitsLt_bf16_f32) p q
  · exact broadcastTo_1b_ab_apply v5 broadcasts_S1x1024_S512x1024 p q

end Cert.KernelIdeal.Val

end
-- ==== Proof.Spec.lean ====
/-
  The function both programs compute, written once over the extended reals with every index a literal `Fin`.

  One attention head for one query row: given the row's 64 query entries `q`, the 1024 x 64 keys `K` and values `V`,
  the scores are s m = (sum over d of q d * K m d) / 8, their maximum mx (the fold of `max` from -inf), the weights
  e m = exp (s m - mx), their sum l, and the row of the output is, at d, the sum over m of (e m / l) * V m d.

  The whole block: the projection P b n o = sum over k of x b n k * w o k has its 3072 columns laid out as
  part (0 = queries, 1 = keys, 2 = values) x head (16) x entry (64); head h of batch b attends over the 1024 positions
  of that batch; the heads' outputs are laid side by side (column h * 64 + d) and multiplied by the output
  weight's transpose, the bias added.
-/
import Idealize.ShloMosaic.PureOps.Ideal
import Mathlib.Data.Finset.Fold
import Idealize.ShloMosaic.Lib.ValueIdx

noncomputable section

namespace Cert.Spec

open Idealize.ShloMosaic Idealize.ShloMosaic.ValueIdx

abbrev Acts : Type := (⟨3, ![16, 1024, 1024]⟩ : Shape).Idx → EReal
abbrev WQkv : Type := (⟨2, ![3072, 1024]⟩ : Shape).Idx → EReal
abbrev WOut : Type := (⟨2, ![1024, 1024]⟩ : Shape).Idx → EReal
abbrev BOut : Type := (⟨1, ![1024]⟩ : Shape).Idx → EReal

/-- 1/8, the score scale (an exact binary fraction), and -inf, where a row's maximum starts. -/
def eighth : EReal := Ideal.ofBits .f32 0x3E000000#32
def ninf : EReal := Ideal.ofBits .f32 0xFF800000#32

/-- The scores of one query row against every key. -/
def scoreRow (q : Fin 64 → EReal) (K : Fin 1024 → Fin 64 → EReal) (m : Fin 1024) : EReal :=
  (∑ d : Fin 64, q d * K m d) * eighth

/-- A row's maximum: the fold of `max` from -inf. -/
def maxRow (s : Fin 1024 → EReal) : EReal := (Finset.univ : Finset (Fin 1024)).fold max ninf s

/-- The unnormalised softmax weights of a row, and their sum. -/
def expRow (s : Fin 1024 → EReal) (m : Fin 1024) : EReal := Ideal.exp (s m - maxRow s)
def sumRow (s : Fin 1024 → EReal) : EReal := ∑ m : Fin 1024, expRow s m

/-- One head, one query row, output entry `d`. -/
def headRow (q : Fin 64 → EReal) (K V : Fin 1024 → Fin 64 → EReal) (d : Fin 64) : EReal :=
  ∑ m : Fin 1024, Ideal.div (expRow (scoreRow q K) m) (sumRow (scoreRow q K)) * V m d

/-- The q/k/v projection at batch `b`, position `n`, column `o`. -/
def proj (x : Acts) (w : WQkv) (b : Fin 16) (n : Fin 1024) (o : Fin 3072) : EReal :=
  ∑ k : Fin 1024, x (ix3 b n k) * w (ix2 o k)

/-- Column of part `s`, head `h`, entry `d` of the projection. -/
def col (s : Fin 3) (h : Fin 16) (d : Fin 64) : Fin 3072 :=
  ⟨s.val * 1024 + h.val * 64 + d.val, by have := s.isLt; have := h.isLt; have := d.isLt; omega⟩

/-- The attention output of batch `b`, head `h`, position `n`, entry `d`. -/
def attn (x : Acts) (w : WQkv) (b : Fin 16) (h : Fin 16) (n : Fin 1024) (d : Fin 64) : EReal :=
  headRow (fun d' => proj x w b n (col 0 h d')) (fun m d' => proj x w b m (col 1 h d')) (fun m d' => proj x w b m (col 2 h d')) d

/-- Head and entry of a column of the concatenated heads. -/
def headOf (c : Fin 1024) : Fin 16 := ⟨c.val / 64, by have := c.isLt; omega⟩
def entryOf (c : Fin 1024) : Fin 64 := ⟨c.val % 64, by omega⟩

/-- The block's output at batch `b`, position `n`, column `o`. -/
def out (x : Acts) (w : WQkv) (wo : WOut) (bo : BOut) (b : Fin 16) (n : Fin 1024) (o : Fin 1024) : EReal :=
  (∑ c : Fin 1024, attn x w b (headOf c) n (entryOf c) * wo (ix2 o c)) + bo (ix1 o)

/-- The whole result array. -/
def result (x : Acts) (w : WQkv) (wo : WOut) (bo : BOut) : Acts :=
  fun i => out x w wo bo ⟨(i 0).val, (i 0).isLt⟩ ⟨(i 1).val, (i 1).isLt⟩ ⟨(i 2).val, (i 2).isLt⟩

/-- The maximum of a row is at least -inf, so a further `max` with -inf changes nothing. -/
theorem max_ninf_maxRow (s : Fin 1024 → EReal) : max ninf (maxRow s) = maxRow s :=
  by
  unfold maxRow
  exact max_eq_right ((Finset.le_fold_max ninf).mpr (Or.inl le_rfl))

end Cert.Spec

end
-- ==== Proof.Layout.lean ====
/-
  The three pallas_calls as whole-array functions, in the kernel's own two-dimensional layout (row r = 1024 b + n of the
  flattened activations), over the extended reals:
  * `projArr a w`   — entry (r, o) is the sum over k of a (r, k) * w (o, k);
  * `attnArr p`     — entry (r, c), with head h = c / 64 and entry d = c % 64, is the head's attention row for the
    queries p (r, 64 h + ·), the keys p (1024 (r / 1024) + m, 1024 + 64 h + ·) and the values
    p (1024 (r / 1024) + m, 2048 + 64 h + ·), m ranging over the 1024 positions of r's batch;
  * `outArr a w b`  — entry (r, o) is the sum over k of a (r, k) * w (o, k), plus b (0, o).
-/
import proofs.«132312_j85676007621236_2_alg».proof.Proof.Spec

noncomputable section

namespace Cert.Layout

open Idealize.ShloMosaic Idealize.ShloMosaic.ValueIdx

abbrev Rows1024 : Type := (⟨2, ![16384, 1024]⟩ : Shape).Idx → EReal
abbrev Rows3072 : Type := (⟨2, ![16384, 3072]⟩ : Shape).Idx → EReal

/-- The row of the flattened activations' batch start plus position `m`. -/
def batchRow (r : Fin 16384) (m : Fin 1024) : Fin 16384 := ⟨r.val / 1024 * 1024 + m.val, by have := r.isLt; have := m.isLt; omega⟩

/-- Column of part `s` (0 queries, 1 keys, 2 values), the head of column `c`, entry `d`. -/
def partCol (s : Fin 3) (c : Fin 1024) (d : Fin 64) : Fin 3072 :=
  ⟨s.val * 1024 + c.val / 64 * 64 + d.val, by have := s.isLt; have := c.isLt; have := d.isLt; omega⟩

def projArr (a : Rows1024) (w : Cert.Spec.WQkv) : Rows3072 := fun j =>
  ∑ k : Fin 1024, a (ix2 (⟨(j 0).val, (j 0).isLt⟩ : Fin 16384) k) * w (ix2 (⟨(j 1).val, (j 1).isLt⟩ : Fin 3072) k)

def attnArr (p : Rows3072) : Rows1024 := fun j =>
  Cert.Spec.headRow
    (fun d' => p (ix2 (⟨(j 0).val, (j 0).isLt⟩ : Fin 16384) (partCol 0 ⟨(j 1).val, (j 1).isLt⟩ d')))
    (fun m d' => p (ix2 (batchRow ⟨(j 0).val, (j 0).isLt⟩ m) (partCol 1 ⟨(j 1).val, (j 1).isLt⟩ d')))
    (fun m d' => p (ix2 (batchRow ⟨(j 0).val, (j 0).isLt⟩ m) (partCol 2 ⟨(j 1).val, (j 1).isLt⟩ d')))
    (Cert.Spec.entryOf ⟨(j 1).val, (j 1).isLt⟩)

def outArr (a : Rows1024) (w : Cert.Spec.WOut) (b : (⟨2, ![1, 1024]⟩ : Shape).Idx → EReal) : Rows1024 := fun j =>
  (∑ k : Fin 1024, a (ix2 (⟨(j 0).val, (j 0).isLt⟩ : Fin 16384) k) * w (ix2 (⟨(j 1).val, (j 1).isLt⟩ : Fin 1024) k))
    + b (ix2 (0 : Fin 1) (⟨(j 1).val, (j 1).isLt⟩ : Fin 1024))

/-- The activations flattened to rows, the bias as a one-row matrix, and rows unflattened to [16, 1024, 1024]:
    the three reshapes of the kernel's host side, read at an index. -/
def flatten (x : Cert.Spec.Acts) : Rows1024 := fun j =>
  x (ix3 (⟨(j 0).val / 1024, by have h : (j 0).val < 16384 := (j 0).isLt; omega⟩ : Fin 16) (⟨(j 0).val % 1024, by omega⟩ : Fin 1024) (⟨(j 1).val, (j 1).isLt⟩ : Fin 1024))
def biasRow (b : Cert.Spec.BOut) : (⟨2, ![1, 1024]⟩ : Shape).Idx → EReal := fun j => b (ix1 (⟨(j 1).val, (j 1).isLt⟩ : Fin 1024))
def unflatten (y : Rows1024) : Cert.Spec.Acts := fun i =>
  y (ix2 (⟨(i 0).val * 1024 + (i 1).val, by have h0 : (i 0).val < 16 := (i 0).isLt; have h1 : (i 1).val < 1024 := (i 1).isLt; omega⟩ : Fin 16384) (⟨(i 2).val, (i 2).isLt⟩ : Fin 1024))

end Cert.Layout

end
-- ==== Proof.Val.Array0.lean ====
/-
  The first pallas_call (the q/k/v projection): from the blocks the grid points write back to the whole array.

  Point t of the 3 x 32 grid (t = 32 j + i) multiplies rows 512 i .. 512 i + 511 of the flattened activations by rows
  1024 j .. 1024 j + 1023 of the weight and writes block (i, j) of the [16384, 3072] projection; entry (r, o) of that
  block is the sum over k of a (r, k) * w (o, k), which is entry (r, o) of `projArr a w`. The 96 blocks tile the array
  (row r, column o is in the block of point (o / 1024) * 32 + r / 512), so the array ends holding `projArr a w`.
-/
import proofs.«132312_j85676007621236_2_alg».proof.Proof.KI.Region0
import proofs.«132312_j85676007621236_2_alg».proof.Proof.Val.MatmulPayload
import proofs.«132312_j85676007621236_2_alg».proof.Proof.Layout
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices of the three windows at point `t`: the activations' block follows `t % 32`, the weight's
    `t / 32`, and the output block is (`t % 32`, `t / 32`). -/
theorem block_indices0 : ∀ t : Fin cfg0.N,
    win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = t.val % 32 ∧ win0_2.index t (1 : Fin 2) = t.val / 32 :=
  (by decide +kernel : ∀ t : Fin grid0.N, _)

/-- One entry of a point's product: if row `j 0` of the left block is row `i 0` of `a` and row `j 1` of the right
    block is row `i 1` of `w`, entry `j` of the block's product is entry `i` of `projArr a w`. -/
theorem proj_entry (x0 : Vec Ideal S512x1024 .f32) (x1 : Vec Ideal S1024x1024 .f32)
    (a : Cert.Layout.Rows1024) (w : Cert.Spec.WQkv) (j : S512x1024.Idx) (i : S16384x3072.Idx)
    (h0 : ∀ k : Fin 1024, x0 (ix2 (⟨(j 0).val, (j 0).isLt⟩ : Fin 512) k) = a (ix2 (⟨(i 0).val, (i 0).isLt⟩ : Fin 16384) k))
    (h1 : ∀ k : Fin 1024, x1 (ix2 (⟨(j 1).val, (j 1).isLt⟩ : Fin 1024) k) = w (ix2 (⟨(i 1).val, (i 1).isLt⟩ : Fin 3072) k)) :
    k0_pay1 (F := Ideal) x0 x1 j = Cert.Layout.projArr a w i := by
  have hj : j = ix2 (⟨(j 0).val, (j 0).isLt⟩ : Fin 512) (⟨(j 1).val, (j 1).isLt⟩ : Fin 1024) :=
    funext fun d => by match d with | ⟨0, _⟩ => rfl | ⟨1, _⟩ => rfl
  refine (congrArg (k0_pay1 (F := Ideal) x0 x1) hj).trans ?_
  refine (proj_block_at x0 x1 _ _).trans ?_
  unfold Cert.Layout.projArr
  exact Finset.sum_congr rfl fun k _ => by rw [h0 k, h1 k]

/-- What point `t` writes back is block `t` of `projArr` of the two arrays as the call finds them. -/
theorem flushed0_eq (c : Dev nD) (t : Fin cfg0.N) :
    (Hand.pd0 (F := Ideal) V c).flushed 2 t
      = ((cfg0.win 2).blk t).view.read (Elt Ideal)
          (Cert.Layout.projArr (V c main_v0 : S16384x1024.Idx → EReal) (V c main_arg1 : S3072x1024.Idx → EReal)) := by
  show (cfg0.win 2).cut (grid0.coords t) ((Hand.pd0 (F := Ideal) V c).after 2 t) = _
  rw [Hand.pd0_after2]
  unfold Hand.res0
  rw [View.canon_unit_zero zero_offsets]
  simp only [View.ld_unit_zero (S := S512x1024) zero_offsets, View.ld_unit_zero (S := S1024x1024) zero_offsets]
  obtain ⟨e00, e01, e10, e11, e20, e21⟩ := block_indices0 t
  funext j
  refine proj_entry _ _ _ _ j (((cfg0.win 2).blk t).view.emb j) (fun k => ?_) (fun k => ?_)
  · show V c main_v0 (((cfg0.win 0).blk t).view.emb (ix2 (⟨(j 0).val, (j 0).isLt⟩ : Fin 512) k)) = _
    refine congrArg (V c main_v0) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  · show V c main_arg1 (((cfg0.win 1).blk t).view.emb (ix2 (⟨(j 1).val, (j 1).isLt⟩ : Fin 1024) k)) = _
    refine congrArg (V c main_arg1) (funext fun a => Fin.ext ?_)
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 1024 + 1 * k.val = k.val; omega

/-- An index of the array is in point `t`'s block iff each coordinate is in the block's range on its axis. -/
theorem mem_block0 (t : Fin cfg0.N) (i : S16384x3072.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- The blocks tile the array: row `r`, column `o` is in the block of point `(o / 1024) * 32 + r / 512`. -/
theorem covered0 (i : S16384x3072.Idx) :
    ∃ t : Fin cfg0.N, (cfg0.win 2).flush t = true ∧ i ∈ ((cfg0.win 2).blk t).view.set := by
  have hN : cfg0.N = 96 := N_0
  have hi0 : (i 0).val < 16384 := (i 0).isLt
  have hi1 : (i 1).val < 3072 := (i 1).isLt
  obtain ⟨t, ht⟩ : ∃ t : Fin cfg0.N, t.val = (i 1).val / 1024 * 32 + (i 0).val / 512 := ⟨⟨_, by omega⟩, rfl⟩
  obtain ⟨-, -, -, -, e20, e21⟩ := block_indices0 t
  refine ⟨t, flush0_2 t, ?_⟩
  rw [mem_block0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The projection array after the call: `projArr` of the activations and the weight as the call finds them. -/
theorem array0 (c : Dev nD) :
    ((Hand.pd0 (F := Ideal) V c).arrAt 2 cfg0.N : S16384x3072.Idx → EReal)
      = Cert.Layout.projArr (V c main_v0 : S16384x1024.Idx → EReal) (V c main_arg1 : S3072x1024.Idx → EReal) :=
  (Hand.pd0 (F := Ideal) V c).arrAt_eq_of_cover 2 _ (fun t _ => flushed0_eq V c t) covered0

end Cert.KernelIdeal.Val

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.Val.AttnPayload.lean ====
/-
  The attention body read at an index.

  One head of the body takes a 256 x 64 block of queries, 1024 x 64 keys and values, and computes
  s = (q k^T) / 8, m = the row maximum of s (the fold of max from -inf), e = exp (s - m), l = the row sum
  of e, p = e / l, o = p v. At the exact values entry (i, d) of o is the specification's row function
  of row i of q, of k and of v. The two heads of a block sit side by side on the 128 lanes of the
  loaded blocks: lanes 0..63 hold the first, lanes 64..127 the second.
-/
import proofs.«132312_j85676007621236_2_alg».proof.Proof.Gen.KernelIdeal.Skeleton
import proofs.«132312_j85676007621236_2_alg».proof.Proof.Spec
import proofs.«132312_j85676007621236_2_alg».proof.Proof.LibColumns
import proofs.«132312_j85676007621236_2_alg».proof.Proof.LibMatmul

noncomputable section

namespace Cert.KernelIdeal.Val

open Cert.KernelIdeal Cert.KernelIdeal.Gen Idealize.ShloMosaic Idealize.ShloMosaic.ValueIdx

/-- Lane of entry d of the first / second head in a 128-lane strip. -/
def lo (d : Fin 64) : Fin 128 := ⟨d.val, by omega⟩
def hi (d : Fin 64) : Fin 128 := ⟨d.val + 64, by omega⟩

/-! ## The two products read at an entry -/

/-- A product with the right operand transposed, accumulated into zero: entry (p, c) of an [n, K] matrix
    times the transpose of an [m, K] matrix is the sum over k of lhs (p, k) * rhs (c, k). The dimension
    numbers enter through four facts about where the operand indices come from. -/
theorem matmul_nt_zero_apply {n K m : ℕ} {φ₁ φ₂ : FTy}
    (D : DotDims ⟨2, ![n, K]⟩ ⟨2, ![m, K]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![n, K]⟩ φ₁) (rhs : FVec Ideal ⟨2, ![m, K]⟩ φ₂) (p : Fin n) (c : Fin m) :
    matmul D prec lhs rhs (constant ⟨2, ![n, m]⟩ .f32 0x00000000#32) (ix2 p c)
      = ∑ k : Fin K, lhs (ix2 p k) * rhs (ix2 c k) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

/-- The scores' product: queries times the keys' transpose, at (i, m). -/
theorem qk_at (qh : FVec Ideal S256x64 .bf16) (kh : FVec Ideal S1024x64 .bf16) (i : Fin 256) (m : Fin 1024) :
    matmul dot_S256x64_S1024x64_S256x1024_1_1_0_0_n_n none qh kh (constant S256x1024 .f32 0x00000000#32) (ix2 i m)
      = ∑ d' : Fin 64, qh (ix2 i d') * kh (ix2 m d') :=
  matmul_nt_zero_apply dot_S256x64_S1024x64_S256x1024_1_1_0_0_n_n none rfl rfl
    (fun i q => by
      unfold DotDims.lhsIdx
      rw [dif_neg (show ¬(0 : Fin S256x64.rank) ∈ dot_S256x64_S1024x64_S256x1024_1_1_0_0_n_n.lhsBatch by decide),
        dif_pos (show (0 : Fin S256x64.rank) ∈ dot_S256x64_S1024x64_S256x1024_1_1_0_0_n_n.lhsNonContracting by decide)]
      rfl)
    (fun i q => dot_S256x64_S1024x64_S256x1024_1_1_0_0_n_n.lhsIdx_val_of_single rfl i q)
    (fun i q => by
      unfold DotDims.rhsIdx
      rw [dif_neg (show ¬(0 : Fin S1024x64.rank) ∈ dot_S256x64_S1024x64_S256x1024_1_1_0_0_n_n.rhsBatch by decide),
        dif_pos (show (0 : Fin S1024x64.rank) ∈ dot_S256x64_S1024x64_S256x1024_1_1_0_0_n_n.rhsNonContracting by decide)]
      rfl)
    (fun i q => dot_S256x64_S1024x64_S256x1024_1_1_0_0_n_n.rhsIdx_val_of_single rfl i q)
    qh kh i m

/-- The output's product: weights times values, at (i, d). -/
theorem pv_at (ph : FVec Ideal S256x1024 .bf16) (vh : FVec Ideal S1024x64 .bf16) (i : Fin 256) (d : Fin 64) :
    matmul dot_S256x1024_S1024x64_S256x64_1_0_0_1_n_n none ph vh (constant S256x64 .f32 0x00000000#32) (ix2 i d)
      = ∑ m : Fin 1024, ph (ix2 i m) * vh (ix2 m d) :=
  Cert.PlainDot.matmul_zero_apply dot_S256x1024_S1024x64_S256x64_1_0_0_1_n_n none rfl rfl
    (fun i q => by
      unfold DotDims.lhsIdx
      rw [dif_neg (show ¬(0 : Fin S256x1024.rank) ∈ dot_S256x1024_S1024x64_S256x64_1_0_0_1_n_n.lhsBatch by decide),
        dif_pos (show (0 : Fin S256x1024.rank) ∈ dot_S256x1024_S1024x64_S256x64_1_0_0_1_n_n.lhsNonContracting by decide)]
      rfl)
    (fun i q => dot_S256x1024_S1024x64_S256x64_1_0_0_1_n_n.lhsIdx_val_of_single rfl i q)
    (fun i q => dot_S256x1024_S1024x64_S256x64_1_0_0_1_n_n.rhsIdx_val_of_single rfl i q)
    (fun i q => by
      unfold DotDims.rhsIdx
      rw [dif_neg (show ¬(1 : Fin S1024x64.rank) ∈ dot_S256x1024_S1024x64_S256x64_1_0_0_1_n_n.rhsBatch by decide),
        dif_pos (show (1 : Fin S1024x64.rank) ∈ dot_S256x1024_S1024x64_S256x64_1_0_0_1_n_n.rhsNonContracting by decide)]
      rfl)
    ph vh i d

/-! ## The row reductions and their column forms -/

/-- A row's maximum: the reduction along the rows of a 256 x 1024 matrix from -inf, at row i. -/
theorem rowMax_at (s : FVec Ideal S256x1024 .f32) (hφ : FKind.Formats .f32)
    (hacc : (0xFF800000#32 : BitVec 32) = FKind.maximumf.neutral .f32 hφ) (i : Fin 256) :
    multiReduction .maximumf [1] S256 s 0xFF800000#32 reduces_S256x1024_S256 hφ hacc (ix1 i)
      = Cert.Spec.maxRow fun m => s (ix2 i m) := by
  refine (Ideal.multiReduction_maximumf_single s _ reduces_S256x1024_S256 hφ hacc (ix1 i)).trans ?_
  unfold Cert.Spec.maxRow Cert.Spec.ninf
  refine congrArg (fun f => (Finset.univ : Finset (Fin 1024)).fold max (Ideal.ofBits .f32 0xFF800000#32) f) ?_
  funext m
  exact congrArg s (Cert.Columns.lift_row reduces_S256x1024_S256 i m)

/-- A row's sum, at row i. -/
theorem rowSum_at (e : FVec Ideal S256x1024 .f32) (hφ : FKind.Formats .f32)
    (hacc : (0x00000000#32 : BitVec 32) = FKind.add.neutral .f32 hφ) (i : Fin 256) :
    multiReduction .add [1] S256 e 0x00000000#32 reduces_S256x1024_S256 hφ hacc (ix1 i)
      = ∑ m : Fin 1024, e (ix2 i m) := by
  refine (Ideal.multiReduction_add_single e _ reduces_S256x1024_S256 hφ hacc (ix1 i)).trans ?_
  refine Finset.sum_congr rfl fun m _ => ?_
  exact congrArg e (Cert.Columns.lift_row reduces_S256x1024_S256 i m)

/-- A 256-vector made a column and spread along the rows reads, at (i, m), the vector at i. -/
theorem column_at (x : FVec Ideal S256 .f32) (i : Fin 256) (m : Fin 1024) :
    broadcastTo S256x1024 (shapeCast S256x1 x shapeCasts_S256_S256x1) broadcasts_S256x1_S256x1024 (ix2 i m) = x (ix1 i) :=
  (Cert.Columns.broadcastTo_a1_ab_apply _ broadcasts_S256x1_S256x1024 i m).trans
    (Cert.Columns.shapeCast_a_a1_apply x shapeCasts_S256_S256x1 i (0 : Fin 1))

/-! ## One head over already-sliced operands -/

/-- The scaled scores. -/
def scoresV (qh : FVec Ideal S256x64 .bf16) (kh : FVec Ideal S1024x64 .bf16) : FVec Ideal S256x1024 .f32 :=
  mulf (matmul dot_S256x64_S1024x64_S256x1024_1_1_0_0_n_n none qh kh (constant S256x1024 .f32 0x00000000#32))
    (broadcast S256x1024 (Scalar.ofBits .f32 0x3E000000#32))

/-- The weights before normalisation: exp of the scores less their row's maximum. -/
def expV (s : FVec Ideal S256x1024 .f32) : FVec Ideal S256x1024 .f32 :=
  exp (subf s (broadcastTo S256x1024
    (shapeCast S256x1 (multiReduction .maximumf [1] S256 s 0xFF800000#32 reduces_S256x1024_S256 (.inl rfl) rfl) shapeCasts_S256_S256x1)
    broadcasts_S256x1_S256x1024))

/-- The rows' sums, spread along the rows. -/
def sumV (e : FVec Ideal S256x1024 .f32) : FVec Ideal S256x1024 .f32 :=
  broadcastTo S256x1024
    (shapeCast S256x1 (multiReduction .add [1] S256 e 0x00000000#32 reduces_S256x1024_S256 (.inl rfl) rfl) shapeCasts_S256_S256x1)
    broadcasts_S256x1_S256x1024

/-- The normalised weights times the values. -/
def outV (vh : FVec Ideal S1024x64 .bf16) (e l : FVec Ideal S256x1024 .f32) : FVec Ideal S256x64 .bf16 :=
  truncf .bf16 (matmul dot_S256x1024_S1024x64_S256x64_1_0_0_1_n_n none (truncf .bf16 (divf e l) bitsLt_bf16_f32) vh
    (constant S256x64 .f32 0x00000000#32)) bitsLt_bf16_f32

/-- One head. -/
def headV (qh : FVec Ideal S256x64 .bf16) (kh vh : FVec Ideal S1024x64 .bf16) : FVec Ideal S256x64 .bf16 :=
  outV vh (expV (scoresV qh kh)) (sumV (expV (scoresV qh kh)))

theorem scoresV_at (qh : FVec Ideal S256x64 .bf16) (kh : FVec Ideal S1024x64 .bf16) (i : Fin 256) (m : Fin 1024) :
    scoresV qh kh (ix2 i m) = Cert.Spec.scoreRow (fun d' => qh (ix2 i d')) (fun m' d' => kh (ix2 m' d')) m := by
  unfold scoresV Cert.Spec.scoreRow Cert.Spec.eighth
  exact congrArg (fun t => t * Ideal.ofBits .f32 0x3E000000#32) (qk_at qh kh i m)

theorem expV_at (s : FVec Ideal S256x1024 .f32) (i : Fin 256) (m : Fin 1024) :
    expV s (ix2 i m) = Cert.Spec.expRow (fun m' => s (ix2 i m')) m := by
  unfold expV Cert.Spec.expRow
  exact congrArg (fun t => Ideal.exp (s (ix2 i m) - t)) ((column_at _ i m).trans (rowMax_at s _ _ i))

theorem sumV_at (e : FVec Ideal S256x1024 .f32) (i : Fin 256) (m : Fin 1024) :
    sumV e (ix2 i m) = ∑ m' : Fin 1024, e (ix2 i m') := by
  unfold sumV
  exact (column_at _ i m).trans (rowSum_at e _ _ i)

theorem outV_at (vh : FVec Ideal S1024x64 .bf16) (e l : FVec Ideal S256x1024 .f32) (i : Fin 256) (d : Fin 64) :
    outV vh e l (ix2 i d) = ∑ m : Fin 1024, Ideal.div (e (ix2 i m)) (l (ix2 i m)) * vh (ix2 m d) := by
  unfold outV
  exact pv_at (truncf .bf16 (divf e l) bitsLt_bf16_f32) vh i d

/-- One head at (i, d) is the specification's row function of row i of the queries, of the keys and of the values. -/
theorem headV_at (qh : FVec Ideal S256x64 .bf16) (kh vh : FVec Ideal S1024x64 .bf16) (i : Fin 256) (d : Fin 64) :
    headV qh kh vh (ix2 i d)
      = Cert.Spec.headRow (fun d' => qh (ix2 i d')) (fun m d' => kh (ix2 m d')) (fun m d' => vh (ix2 m d')) d := by
  have hs : (fun m => scoresV qh kh (ix2 i m))
      = Cert.Spec.scoreRow (fun d' => qh (ix2 i d')) (fun m d' => kh (ix2 m d')) := funext fun m => scoresV_at qh kh i m
  unfold headV Cert.Spec.headRow Cert.Spec.sumRow
  rw [← hs]
  refine (outV_at _ _ _ i d).trans (Finset.sum_congr rfl fun m _ => ?_)
  refine congrArg₂ (fun a b => Ideal.div a b * vh (ix2 m d)) (expV_at _ i m) ?_
  exact (sumV_at _ i m).trans (Finset.sum_congr rfl fun m' _ => expV_at _ i m')

/-! ## The slices of the loaded blocks -/

/-- The first 64 lanes of a 128-lane block, at (p, d). -/
theorem sliceLo_at {α : Type} {a : ℕ} (x : (⟨2, ![a, 128]⟩ : Shape).Idx → α)
    (h : Shape.Slices ⟨2, ![a, 128]⟩ ![0, 0] ⟨2, ![a, 64]⟩) (p : Fin a) (d : Fin 64) :
    extractStridedSlice ⟨2, ![a, 64]⟩ ![0, 0] x h (ix2 p d) = x (ix2 p (lo d)) :=
  extractStridedSlice_apply _ x h (ix2 p d) (ix2 p (lo d)) fun ax => by
    match ax with
    | ⟨0, _⟩ => show p.val = 0 + p.val; omega
    | ⟨1, _⟩ => show d.val = 0 + d.val; omega

/-- The last 64 lanes of a 128-lane block, at (p, d). -/
theorem sliceHi_at {α : Type} {a : ℕ} (x : (⟨2, ![a, 128]⟩ : Shape).Idx → α)
    (h : Shape.Slices ⟨2, ![a, 128]⟩ ![0, 64] ⟨2, ![a, 64]⟩) (p : Fin a) (d : Fin 64) :
    extractStridedSlice ⟨2, ![a, 64]⟩ ![0, 64] x h (ix2 p d) = x (ix2 p (hi d)) :=
  extractStridedSlice_apply _ x h (ix2 p d) (ix2 p (hi d)) fun ax => by
    match ax with
    | ⟨0, _⟩ => show p.val = 0 + p.val; omega
    | ⟨1, _⟩ => show d.val + 64 = 64 + d.val; omega

/-! ## The two heads of the body -/

theorem pay2_eq (v0 : Vec Ideal S256x128 .bf16) : k1_pay2 (F := Ideal) v0 = v0 := shapeCast_self _ _
theorem pay3_eq (v2 : Vec Ideal S1024x128 .bf16) : k1_pay3 (F := Ideal) v2 = v2 := shapeCast_self _ _
theorem pay4_eq (v4 : Vec Ideal S1024x128 .bf16) : k1_pay4 (F := Ideal) v4 = v4 := shapeCast_self _ _

/-- The row function depends only on the values of its three arguments. -/
theorem headRow_congr {q q' : Fin 64 → EReal} {K K' V V' : Fin 1024 → Fin 64 → EReal} (hq : q = q') (hK : K = K') (hV : V = V')
    (d : Fin 64) : Cert.Spec.headRow q K V d = Cert.Spec.headRow q' K' V' d := by
  subst hq hK hV; rfl

theorem head0_at (v0 : Vec Ideal S256x128 .bf16) (v2 v4 : Vec Ideal S1024x128 .bf16) (i : Fin 256) (d : Fin 64) :
    k1_pay5 (F := Ideal) v0 v2 v4 (ix2 i d)
      = Cert.Spec.headRow (fun d' => v0 (ix2 i (lo d'))) (fun m d' => v2 (ix2 m (lo d'))) (fun m d' => v4 (ix2 m (lo d'))) d := by
  have h : k1_pay5 (F := Ideal) v0 v2 v4
      = headV (extractStridedSlice S256x64 ![0, 0] (k1_pay2 v0) slices_S256x128_o0_0_S256x64)
          (extractStridedSlice S1024x64 ![0, 0] (k1_pay3 v2) slices_S1024x128_o0_0_S1024x64)
          (extractStridedSlice S1024x64 ![0, 0] (k1_pay4 v4) slices_S1024x128_o0_0_S1024x64) := rfl
  rw [h, pay2_eq, pay3_eq, pay4_eq]
  refine (headV_at _ _ _ i d).trans ?_
  exact headRow_congr (funext fun d' => sliceLo_at v0 _ i d') (funext fun m => funext fun d' => sliceLo_at v2 _ m d')
    (funext fun m => funext fun d' => sliceLo_at v4 _ m d') d

theorem head1_at (v0 : Vec Ideal S256x128 .bf16) (v2 v4 : Vec Ideal S1024x128 .bf16) (i : Fin 256) (d : Fin 64) :
    k1_pay1 (F := Ideal) (k1_pay6 v4) (k1_pay7 v0 v2) (k1_pay8 v0 v2) (ix2 i d)
      = Cert.Spec.headRow (fun d' => v0 (ix2 i (hi d'))) (fun m d' => v2 (ix2 m (hi d'))) (fun m d' => v4 (ix2 m (hi d'))) d := by
  have h : k1_pay1 (F := Ideal) (k1_pay6 v4) (k1_pay7 v0 v2) (k1_pay8 v0 v2)
      = headV (extractStridedSlice S256x64 ![0, 64] (k1_pay2 v0) slices_S256x128_o0_64_S256x64)
          (extractStridedSlice S1024x64 ![0, 64] (k1_pay3 v2) slices_S1024x128_o0_64_S1024x64)
          (extractStridedSlice S1024x64 ![0, 64] (k1_pay4 v4) slices_S1024x128_o0_64_S1024x64) := rfl
  rw [h, pay2_eq, pay3_eq, pay4_eq]
  refine (headV_at _ _ _ i d).trans ?_
  exact headRow_congr (funext fun d' => sliceHi_at v0 _ i d') (funext fun m => funext fun d' => sliceHi_at v2 _ m d')
    (funext fun m => funext fun d' => sliceHi_at v4 _ m d') d

end Cert.KernelIdeal.Val

end
-- ==== Proof.Val.Array1.lean ====
/-
  The second call (the attention): from the blocks the grid points write back to the whole array.

  Point t of the 16 x 8 x 4 grid, t = 32 b + 4 h2 + nt, reads the 256 query rows 256 (4 b + nt) .. of lane strip h2 of the
  projection, the 1024 key rows of batch b in strip 8 + h2 and the 1024 value rows in strip 16 + h2, and writes block
  (4 b + nt, h2) of the [16384, 1024] output: lanes 0..63 of the block are the strip's first head, lanes 64..127 its
  second. Entry (i, l) of that block is therefore the attention row of head l / 64 of the strip at entry l % 64, which is
  entry (256 (4 b + nt) + i, 128 h2 + l) of attnArr of the projection. The 512 blocks tile the output (row r, column cc
  is in the block of point 32 (r / 1024) + 4 (cc / 128) + (r % 1024) / 256), so the array ends holding attnArr.
-/
import proofs.«132312_j85676007621236_2_alg».proof.Proof.KI.Region1
import proofs.«132312_j85676007621236_2_alg».proof.Proof.Val.AttnPayload
import proofs.«132312_j85676007621236_2_alg».proof.Proof.Layout
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The block indices of the four windows at point t = 32 b + 4 h2 + nt: the queries' and the output's block is
    (4 b + nt, h2), the keys' (b, 8 + h2), the values' (b, 16 + h2). -/
theorem block_indices1 : ∀ t : Fin cfg1.N,
    win1_0.index t (0 : Fin 2) = t.val / 32 * 4 + t.val % 4 ∧ win1_0.index t (1 : Fin 2) = t.val / 4 % 8
    ∧ win1_1.index t (0 : Fin 2) = t.val / 32 ∧ win1_1.index t (1 : Fin 2) = 8 + t.val / 4 % 8
    ∧ win1_2.index t (0 : Fin 2) = t.val / 32 ∧ win1_2.index t (1 : Fin 2) = 16 + t.val / 4 % 8
    ∧ win1_3.index t (0 : Fin 2) = t.val / 32 * 4 + t.val % 4 ∧ win1_3.index t (1 : Fin 2) = t.val / 4 % 8 :=
  (by decide +kernel : ∀ t : Fin grid1.N, _)

/-- Lane d of the head that lane l belongs to (the first head of a strip holds lanes 0..63, the second 64..127). -/
def laneOf (l : Fin 128) (d : Fin 64) : Fin 128 := ⟨l.val / 64 * 64 + d.val, by have := l.isLt; have := d.isLt; omega⟩

/-- A point's output block as ONE function of its three input blocks: entry (i, l) is the attention row of the head of
    lane l, at entry l % 64. -/
def headsBlk (x0 : Vec Ideal S256x128 .bf16) (x1 x2 : Vec Ideal S1024x128 .bf16) : Vec Ideal S256x128 .bf16 := fun y =>
  Cert.Spec.headRow
    (fun d' => x0 (ix2 (⟨(y 0).val, (y 0).isLt⟩ : Fin 256) (laneOf ⟨(y 1).val, (y 1).isLt⟩ d')))
    (fun m d' => x1 (ix2 m (laneOf ⟨(y 1).val, (y 1).isLt⟩ d')))
    (fun m d' => x2 (ix2 m (laneOf ⟨(y 1).val, (y 1).isLt⟩ d')))
    (⟨(y 1).val % 64, by omega⟩ : Fin 64)

/-- The store of the second head (lanes 64..127) holds the block function there. -/
theorem hi_piece (x0 : Vec Ideal S256x128 .bf16) (x1 x2 : Vec Ideal S1024x128 .bf16) (x : S256x64.Idx) :
    k1_pay1 (F := Ideal) (k1_pay6 (View.ld x2 Hand.keyRect)) (k1_pay7 (View.ld x0 Hand.queryRect) (View.ld x1 Hand.keyRect))
        (k1_pay8 (View.ld x0 Hand.queryRect) (View.ld x1 Hand.keyRect)) x
      = headsBlk x0 x1 x2 (Hand.lanesHi.emb x) := by
  simp only [View.ld_unit_zero (S := S256x128) zero_offsets1, View.ld_unit_zero (S := S1024x128) zero_offsets1]
  obtain ⟨i, d, rfl⟩ : ∃ (i : Fin 256) (d : Fin 64), x = ix2 i d := ⟨x 0, x 1, eq_ix2 x⟩
  rw [head1_at]
  have he : Hand.lanesHi.emb (ix2 i d) = ix2 i (hi d) := funext fun a => Fin.ext (by
    match a with
    | ⟨0, _⟩ => show 0 + 1 * i.val = i.val; omega
    | ⟨1, _⟩ => show 64 + 1 * d.val = d.val + 64; omega)
  rw [he]
  unfold headsBlk
  have hl : ∀ d' : Fin 64, laneOf ⟨((ix2 i (hi d) : S256x128.Idx) 1).val, ((ix2 i (hi d) : S256x128.Idx) 1).isLt⟩ d' = hi d' := fun d' =>
    Fin.ext (by show (d.val + 64) / 64 * 64 + d'.val = d'.val + 64; have := d.isLt; omega)
  have hd : (⟨((ix2 i (hi d) : S256x128.Idx) 1).val % 64, by omega⟩ : Fin 64) = d :=
    Fin.ext (by show (d.val + 64) % 64 = d.val; have := d.isLt; omega)
  rw [hd]
  exact headRow_congr (funext fun d' => by rw [hl]) (funext fun m => funext fun d' => by rw [hl])
    (funext fun m => funext fun d' => by rw [hl]) d

/-- The store of the first head (lanes 0..63) holds the block function there. -/
theorem lo_piece (x0 : Vec Ideal S256x128 .bf16) (x1 x2 : Vec Ideal S1024x128 .bf16) (x : S256x64.Idx) :
    k1_pay5 (F := Ideal) (View.ld x0 Hand.queryRect) (View.ld x1 Hand.keyRect) (View.ld x2 Hand.keyRect) x
      = headsBlk x0 x1 x2 (Hand.lanesLo.emb x) := by
  simp only [View.ld_unit_zero (S := S256x128) zero_offsets1, View.ld_unit_zero (S := S1024x128) zero_offsets1]
  obtain ⟨i, d, rfl⟩ : ∃ (i : Fin 256) (d : Fin 64), x = ix2 i d := ⟨x 0, x 1, eq_ix2 x⟩
  rw [head0_at]
  have he : Hand.lanesLo.emb (ix2 i d) = ix2 i (lo d) := funext fun a => Fin.ext (by
    match a with
    | ⟨0, _⟩ => show 0 + 1 * i.val = i.val; omega
    | ⟨1, _⟩ => show 0 + 1 * d.val = d.val; omega)
  rw [he]
  unfold headsBlk
  have hl : ∀ d' : Fin 64, laneOf ⟨((ix2 i (lo d) : S256x128.Idx) 1).val, ((ix2 i (lo d) : S256x128.Idx) 1).isLt⟩ d' = lo d' := fun d' =>
    Fin.ext (by show d.val / 64 * 64 + d'.val = d'.val; have := d.isLt; omega)
  have hd : (⟨((ix2 i (lo d) : S256x128.Idx) 1).val % 64, by omega⟩ : Fin 64) = d :=
    Fin.ext (by show d.val % 64 = d.val; have := d.isLt; omega)
  rw [hd]
  exact headRow_congr (funext fun d' => by rw [hl]) (funext fun m => funext fun d' => by rw [hl])
    (funext fun m => funext fun d' => by rw [hl]) d

/-- What the body leaves in the output's buffer — its two stores — is the block function of its three input blocks. -/
theorem res1_eq (x0 : Vec Ideal S256x128 .bf16) (x1 x2 : Vec Ideal S1024x128 .bf16) :
    Hand.res1 (F := Ideal) x0 x1 x2 = headsBlk x0 x1 x2 := by
  funext y
  unfold Hand.res1
  refine View.canon_apply_of_pieces (headsBlk x0 x1 x2) _ ?_ y (Hand.covers1 _ _ y)
  intro p hp x
  rcases List.mem_cons.mp hp with rfl | hp
  · exact hi_piece x0 x1 x2 x
  · rcases List.mem_cons.mp hp with rfl | hp
    · exact lo_piece x0 x1 x2 x
    · exact absurd hp List.not_mem_nil

/-- One entry of a point's block: if lane l of the block sits at column cc of the output with cc % 128 = l, the query
    block's row is row r of the projection at the strip of cc, and the key and value blocks are the rows of r's batch at
    the strip of cc in the second and third part, then the block function there is attnArr of the projection at (r, cc). -/
theorem attn_entry (x0 : Vec Ideal S256x128 .bf16) (x1 x2 : Vec Ideal S1024x128 .bf16) (p : Cert.Layout.Rows3072)
    (y : S256x128.Idx) (i : S16384x1024.Idx) (hl : (i 1).val % 128 = (y 1).val)
    (hq : ∀ l : Fin 128, x0 (ix2 (⟨(y 0).val, (y 0).isLt⟩ : Fin 256) l)
      = p (ix2 (⟨(i 0).val, (i 0).isLt⟩ : Fin 16384)
          (⟨(i 1).val / 128 * 128 + l.val, by have h1 : (i 1).val < 1024 := (i 1).isLt; have := l.isLt; omega⟩ : Fin 3072)))
    (hk : ∀ (m : Fin 1024) (l : Fin 128), x1 (ix2 m l)
      = p (ix2 (Cert.Layout.batchRow ⟨(i 0).val, (i 0).isLt⟩ m)
          (⟨1024 + (i 1).val / 128 * 128 + l.val, by have h1 : (i 1).val < 1024 := (i 1).isLt; have := l.isLt; omega⟩ : Fin 3072)))
    (hv : ∀ (m : Fin 1024) (l : Fin 128), x2 (ix2 m l)
      = p (ix2 (Cert.Layout.batchRow ⟨(i 0).val, (i 0).isLt⟩ m)
          (⟨2048 + (i 1).val / 128 * 128 + l.val, by have h1 : (i 1).val < 1024 := (i 1).isLt; have := l.isLt; omega⟩ : Fin 3072))) :
    headsBlk x0 x1 x2 y = Cert.Layout.attnArr p i := by
  have h1 : (i 1).val < 1024 := (i 1).isLt
  have hy1 : (y 1).val < 128 := (y 1).isLt
  unfold headsBlk Cert.Layout.attnArr
  have hd : (⟨(y 1).val % 64, by omega⟩ : Fin 64) = Cert.Spec.entryOf ⟨(i 1).val, (i 1).isLt⟩ :=
    Fin.ext (by show (y 1).val % 64 = (i 1).val % 64; omega)
  rw [hd]
  refine headRow_congr (funext fun d' => ?_) (funext fun m => funext fun d' => ?_) (funext fun m => funext fun d' => ?_) _
  · rw [hq]
    refine congrArg p (congrArg (ix2 _) (Fin.ext ?_))
    show (i 1).val / 128 * 128 + ((y 1).val / 64 * 64 + d'.val) = 0 * 1024 + (i 1).val / 64 * 64 + d'.val
    omega
  · rw [hk]
    refine congrArg p (congrArg (ix2 _) (Fin.ext ?_))
    show 1024 + (i 1).val / 128 * 128 + ((y 1).val / 64 * 64 + d'.val) = 1 * 1024 + (i 1).val / 64 * 64 + d'.val
    omega
  · rw [hv]
    refine congrArg p (congrArg (ix2 _) (Fin.ext ?_))
    show 2048 + (i 1).val / 128 * 128 + ((y 1).val / 64 * 64 + d'.val) = 2 * 1024 + (i 1).val / 64 * 64 + d'.val
    omega

/-- What point t writes back is block t of attnArr of the projection as the call finds it. -/
theorem flushed1_eq (c : Dev nD) (t : Fin cfg1.N) :
    (Hand.pd1 (F := Ideal) V c).flushed 3 t
      = ((cfg1.win 3).blk t).view.read (Elt Ideal) (Cert.Layout.attnArr (V c main_v1 : S16384x3072.Idx → EReal)) := by
  show (cfg1.win 3).cut (grid1.coords t) ((Hand.pd1 (F := Ideal) V c).after 3 t) = _
  rw [Hand.pd1_after3]
  obtain ⟨e00, e01, e10, e11, e20, e21, e30, e31⟩ := block_indices1 t
  have ht : t.val < 512 := t.isLt
  funext y
  have hy0 : (y 0).val < 256 := (y 0).isLt
  have hy1 : (y 1).val < 128 := (y 1).isLt
  refine (congrFun (res1_eq (Hand.blk1 V c 0 t) (Hand.blk1 V c 1 t) (Hand.blk1 V c 2 t)) y).trans ?_
  refine attn_entry _ _ _ _ y (((cfg1.win 3).blk t).view.emb y) ?_ (fun l => ?_) (fun m l => ?_) (fun m l => ?_)
  · show (win1_3.index t (1 : Fin 2) * 128 + 1 * (y 1).val) % 128 = (y 1).val
    omega
  · show V c main_v1 (((cfg1.win 0).blk t).view.emb (ix2 (⟨(y 0).val, (y 0).isLt⟩ : Fin 256) l)) = _
    refine congrArg (V c main_v1) (funext fun a => Fin.ext ?_)
    have hl := l.isLt
    match a with
    | ⟨0, _⟩ => show win1_0.index t (0 : Fin 2) * 256 + 1 * (y 0).val = win1_3.index t (0 : Fin 2) * 256 + 1 * (y 0).val; omega
    | ⟨1, _⟩ => show win1_0.index t (1 : Fin 2) * 128 + 1 * l.val = (win1_3.index t (1 : Fin 2) * 128 + 1 * (y 1).val) / 128 * 128 + l.val; omega
  · show V c main_v1 (((cfg1.win 1).blk t).view.emb (ix2 m l)) = _
    refine congrArg (V c main_v1) (funext fun a => Fin.ext ?_)
    have hl := l.isLt
    have hm := m.isLt
    match a with
    | ⟨0, _⟩ => show win1_1.index t (0 : Fin 2) * 1024 + 1 * m.val = (win1_3.index t (0 : Fin 2) * 256 + 1 * (y 0).val) / 1024 * 1024 + m.val; omega
    | ⟨1, _⟩ => show win1_1.index t (1 : Fin 2) * 128 + 1 * l.val = 1024 + (win1_3.index t (1 : Fin 2) * 128 + 1 * (y 1).val) / 128 * 128 + l.val; omega
  · show V c main_v1 (((cfg1.win 2).blk t).view.emb (ix2 m l)) = _
    refine congrArg (V c main_v1) (funext fun a => Fin.ext ?_)
    have hl := l.isLt
    have hm := m.isLt
    match a with
    | ⟨0, _⟩ => show win1_2.index t (0 : Fin 2) * 1024 + 1 * m.val = (win1_3.index t (0 : Fin 2) * 256 + 1 * (y 0).val) / 1024 * 1024 + m.val; omega
    | ⟨1, _⟩ => show win1_2.index t (1 : Fin 2) * 128 + 1 * l.val = 2048 + (win1_3.index t (1 : Fin 2) * 128 + 1 * (y 1).val) / 128 * 128 + l.val; omega

/-- An index of the output is in point t's block iff each coordinate is in the block's range on its axis. -/
theorem mem_blk1 (t : Fin cfg1.N) (i : S16384x1024.Idx) :
    i ∈ ((cfg1.win 3).blk t).view.set
      ↔ ∀ a : Fin 2, win1_3.index t a * S256x128.size a ≤ (i a).val ∧ (i a).val < win1_3.index t a * S256x128.size a + S256x128.size a := by
  show i ∈ ((View.whole main_v2).slice (win1_3.rect t)).set ↔ _
  rw [View.set_slice_whole, Rect.mem_set_unit]
  exact Iff.rfl

/-- The blocks tile the output: row r, column cc is in the block of point 32 (r / 1024) + 4 (cc / 128) + (r % 1024) / 256. -/
theorem cover1 (i : S16384x1024.Idx) :
    ∃ t : Fin cfg1.N, (cfg1.win 3).flush t = true ∧ i ∈ ((cfg1.win 3).blk t).view.set := by
  have h0 : (i 0).val < 16384 := (i 0).isLt
  have h1 : (i 1).val < 1024 := (i 1).isLt
  obtain ⟨n, hn⟩ : ∃ n : Nat, n = (i 0).val / 1024 * 32 + (i 1).val / 128 * 4 + (i 0).val % 1024 / 256 := ⟨_, rfl⟩
  have hN : n < cfg1.N := by
    show n < 512
    omega
  obtain ⟨-, -, -, -, -, -, e30, e31⟩ := block_indices1 ⟨n, hN⟩
  have e30' : win1_3.index ⟨n, hN⟩ (0 : Fin 2) = n / 32 * 4 + n % 4 := e30
  have e31' : win1_3.index ⟨n, hN⟩ (1 : Fin 2) = n / 4 % 8 := e31
  refine ⟨⟨n, hN⟩, flush1_3 _, ?_⟩
  rw [mem_blk1]
  intro a
  match a with
  | ⟨0, _⟩ =>
    show win1_3.index ⟨n, hN⟩ (0 : Fin 2) * 256 ≤ (i 0).val ∧ (i 0).val < win1_3.index ⟨n, hN⟩ (0 : Fin 2) * 256 + 256
    omega
  | ⟨1, _⟩ =>
    show win1_3.index ⟨n, hN⟩ (1 : Fin 2) * 128 ≤ (i 1).val ∧ (i 1).val < win1_3.index ⟨n, hN⟩ (1 : Fin 2) * 128 + 128
    omega

/-- The output array after the call: attnArr of the projection as the call finds it. -/
theorem array1 (c : Dev nD) :
    ((Hand.pd1 (F := Ideal) V c).arrAt 3 cfg1.N : S16384x1024.Idx → EReal)
      = Cert.Layout.attnArr (V c main_v1 : S16384x3072.Idx → EReal) :=
  (Hand.pd1 (F := Ideal) V c).arrAt_eq_of_cover 3 (Cert.Layout.attnArr (V c main_v1 : S16384x3072.Idx → EReal))
    (fun t _ => flushed1_eq V c t) cover1

end Cert.KernelIdeal.Val

end
-- ==== Proof.Val.Array2.lean ====
/-
  The third pallas_call (the output projection with its bias): from the blocks the grid points write back to the
  whole array.

  Point t of the 1 x 32 grid multiplies rows 512 t .. 512 t + 511 of the concatenated heads by all 1024 rows of the
  output weight, adds the bias row, and writes rows 512 t .. 512 t + 511 of the [16384, 1024] result; entry (r, o) of
  that block is the sum over k of a (r, k) * w (o, k) plus b (0, o), which is entry (r, o) of `outArr a w b`. The 32
  row blocks tile the array (row r is in the block of point r / 512), so the array ends holding `outArr a w b`.
-/
import proofs.«132312_j85676007621236_2_alg».proof.Proof.KI.Region2
import proofs.«132312_j85676007621236_2_alg».proof.Proof.Val.MatmulPayload
import proofs.«132312_j85676007621236_2_alg».proof.Proof.Layout
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets_out : (![0, 0] : Fin 2 → Nat) = fun _ => 0 := funext fun a => by fin_cases a <;> rfl

/-- The block indices of the four windows at point `t`: the heads' block and the output block follow `t`, the weight
    and the bias row stay at block (0, 0). -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One entry of a point's result: if row `j 0` of the left block is row `i 0` of `a`, row `j 1` of the weight block
    is row `i 1` of `w` and the bias block at `j 1` is `b` at `i 1`, entry `j` of the block is entry `i` of `outArr a w b`. -/
theorem out_entry (x0 : Vec Ideal S512x1024 .bf16) (x1 : Vec Ideal S1024x1024 .f32) (x2 : Vec Ideal S1x1024 .f32)
    (a : Cert.Layout.Rows1024) (w : Cert.Spec.WOut) (b : S1x1024.Idx → EReal) (j : S512x1024.Idx) (i : S16384x1024.Idx)
    (h0 : ∀ k : Fin 1024, x0 (ix2 (⟨(j 0).val, (j 0).isLt⟩ : Fin 512) k) = a (ix2 (⟨(i 0).val, (i 0).isLt⟩ : Fin 16384) k))
    (h1 : ∀ k : Fin 1024, x1 (ix2 (⟨(j 1).val, (j 1).isLt⟩ : Fin 1024) k) = w (ix2 (⟨(i 1).val, (i 1).isLt⟩ : Fin 1024) k))
    (h2 : x2 (ix2 (0 : Fin 1) (⟨(j 1).val, (j 1).isLt⟩ : Fin 1024)) = b (ix2 (0 : Fin 1) (⟨(i 1).val, (i 1).isLt⟩ : Fin 1024))) :
    k2_pay1 (F := Ideal) x0 x1 x2 j = Cert.Layout.outArr a w b i := by
  have hj : j = ix2 (⟨(j 0).val, (j 0).isLt⟩ : Fin 512) (⟨(j 1).val, (j 1).isLt⟩ : Fin 1024) :=
    funext fun d => by match d with | ⟨0, _⟩ => rfl | ⟨1, _⟩ => rfl
  refine (congrArg (k2_pay1 (F := Ideal) x0 x1 x2) hj).trans ?_
  refine (out_block_at x0 x1 x2 _ _).trans ?_
  unfold Cert.Layout.outArr
  exact congrArg₂ (· + ·) (Finset.sum_congr rfl fun k _ => by rw [h0 k, h1 k]) h2

/-- What point `t` writes back is block `t` of `outArr` of the three arrays as the call finds them. -/
theorem flushed2_eq (c : Dev nD) (t : Fin cfg2.N) :
    (Hand.pd2 (F := Ideal) V c).flushed 3 t
      = ((cfg2.win 3).blk t).view.read (Elt Ideal)
          (Cert.Layout.outArr (V c main_v2 : S16384x1024.Idx → EReal) (V c main_arg2 : S1024x1024.Idx → EReal)
            (V c main_v3 : S1x1024.Idx → EReal)) := by
  show (cfg2.win 3).cut (grid2.coords t) ((Hand.pd2 (F := Ideal) V c).after 3 t) = _
  rw [Hand.pd2_after3]
  unfold Hand.res2
  rw [View.canon_unit_zero zero_offsets_out]
  simp only [View.ld_unit_zero (S := S512x1024) zero_offsets_out, View.ld_unit_zero (S := S1024x1024) zero_offsets_out,
    View.ld_unit_zero (S := S1x1024) zero_offsets_out]
  obtain ⟨e00, e01, e10, e11, e20, e21, e30, e31⟩ := block_indices2 t
  funext j
  refine out_entry _ _ _ _ _ _ j (((cfg2.win 3).blk t).view.emb j) (fun k => ?_) (fun k => ?_) ?_
  · show V c main_v2 (((cfg2.win 0).blk t).view.emb (ix2 (⟨(j 0).val, (j 0).isLt⟩ : Fin 512) k)) = _
    refine congrArg (V c main_v2) (funext fun a => Fin.ext ?_)
    match a with
    | ⟨0, _⟩ => show win2_0.index t (0 : Fin 2) * 512 + 1 * (j 0).val = win2_3.index t (0 : Fin 2) * 512 + 1 * (j 0).val; omega
    | ⟨1, _⟩ => show win2_0.index t (1 : Fin 2) * 1024 + 1 * k.val = k.val; omega
  · show V c main_arg2 (((cfg2.win 1).blk t).view.emb (ix2 (⟨(j 1).val, (j 1).isLt⟩ : Fin 1024) k)) = _
    refine congrArg (V c main_arg2) (funext fun a => Fin.ext ?_)
    match a with
    | ⟨0, _⟩ => show win2_1.index t (0 : Fin 2) * 1024 + 1 * (j 1).val = win2_3.index t (1 : Fin 2) * 1024 + 1 * (j 1).val; omega
    | ⟨1, _⟩ => show win2_1.index t (1 : Fin 2) * 1024 + 1 * k.val = k.val; omega
  · show V c main_v3 (((cfg2.win 2).blk t).view.emb (ix2 (0 : Fin 1) (⟨(j 1).val, (j 1).isLt⟩ : Fin 1024))) = _
    refine congrArg (V c main_v3) (funext fun a => Fin.ext ?_)
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega

/-- An index of the array is in point `t`'s block iff each coordinate is in the block's range on its axis. -/
theorem mem_block2 (t : Fin cfg2.N) (i : S16384x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v4).slice (win2_3.rect t)).set ↔ _
  rw [View.set_slice_whole, Rect.mem_set_unit]
  exact Iff.rfl

/-- The row blocks tile the array: row `r` is in the block of point `r / 512`. -/
theorem covered2 (i : S16384x1024.Idx) :
    ∃ t : Fin cfg2.N, (cfg2.win 3).flush t = true ∧ i ∈ ((cfg2.win 3).blk t).view.set := by
  have hN : cfg2.N = 32 := N_2
  have hi0 : (i 0).val < 16384 := (i 0).isLt
  have hi1 : (i 1).val < 1024 := (i 1).isLt
  obtain ⟨t, ht⟩ : ∃ t : Fin cfg2.N, t.val = (i 0).val / 512 := ⟨⟨_, by omega⟩, rfl⟩
  obtain ⟨-, -, -, -, -, -, e30, e31⟩ := block_indices2 t
  refine ⟨t, flush2_3 t, ?_⟩
  rw [mem_block2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The result array after the call: `outArr` of the heads, the output weight and the bias row as the call finds them. -/
theorem array2 (c : Dev nD) :
    ((Hand.pd2 (F := Ideal) V c).arrAt 3 cfg2.N : S16384x1024.Idx → EReal)
      = Cert.Layout.outArr (V c main_v2 : S16384x1024.Idx → EReal) (V c main_arg2 : S1024x1024.Idx → EReal)
          (V c main_v3 : S1x1024.Idx → EReal) :=
  (Hand.pd2 (F := Ideal) V c).arrAt_eq_of_cover 3 _ (fun t _ => flushed2_eq V c t) covered2

end Cert.KernelIdeal.Val

end
-- ==== Proof.Val.Reshapes.lean ====
/-
  The three host reshapes of the kernel side read at an index, over the extended reals: the activations
  [16, 1024, 1024] flattened to rows [16384, 1024] (row r is batch r / 1024, position r % 1024), the bias [1024] as a
  one-row matrix [1, 1024], and the rows [16384, 1024] unflattened to [16, 1024, 1024] (batch b, position n is row
  b * 1024 + n). A reshape keeps the row-major position, so each is an equation between two row-major sums.
-/
import proofs.«132312_j85676007621236_2_alg».proof.KernelIdeal
import proofs.«132312_j85676007621236_2_alg».proof.Proof.Layout
import Idealize.ShloMosaic.Lib.Pipeline.Value
import Idealize.ShloMosaic.Lib.ValueLayout

noncomputable section

namespace Cert.KernelIdeal.Val

open Cert.KernelIdeal Cert.KernelIdeal.Facts₀ Idealize.ShloMosaic Idealize.ShloMosaic.ValueIdx

variable [Cert.KernelIdeal.Facts]

/-- The activations flattened to rows. -/
theorem reshape_acts (x : S16x1024x1024.Idx → EReal) :
    (shapeCast S16384x1024 x shapeCasts_S16x1024x1024_S16384x1024 : S16384x1024.Idx → EReal) = Cert.Layout.flatten x := by
  funext j
  have h0 : (j 0).val < 16384 := (j 0).isLt
  have h1 : (j 1).val < 1024 := (j 1).isLt
  unfold Cert.Layout.flatten
  refine shapeCast_apply x shapeCasts_S16x1024x1024_S16384x1024 j _ ?_
  rewrite [Shape.rowMajor_val_three, Shape.rowMajor_val_two]
  show ((j 0).val / 1024 * 1024 + (j 0).val % 1024) * 1024 + (j 1).val = (j 0).val * 1024 + (j 1).val
  omega

/-- The bias as a one-row matrix. -/
theorem reshape_bias (b : S1024.Idx → EReal) :
    (shapeCast S1x1024 b shapeCasts_S1024_S1x1024 : S1x1024.Idx → EReal) = Cert.Layout.biasRow b := by
  funext j
  have h0 : (j 0).val < 1 := (j 0).isLt
  have h1 : (j 1).val < 1024 := (j 1).isLt
  unfold Cert.Layout.biasRow
  refine shapeCast_apply b shapeCasts_S1024_S1x1024 j _ ?_
  rewrite [Shape.rowMajor_val_one, Shape.rowMajor_val_two]
  show (j 1).val = (j 0).val * 1024 + (j 1).val
  omega

/-- The rows unflattened to batch x position x column. -/
theorem reshape_result (y : S16384x1024.Idx → EReal) :
    (shapeCast S16x1024x1024 y shapeCasts_S16384x1024_S16x1024x1024 : S16x1024x1024.Idx → EReal) = Cert.Layout.unflatten y := by
  funext i
  have h0 : (i 0).val < 16 := (i 0).isLt
  have h1 : (i 1).val < 1024 := (i 1).isLt
  have h2 : (i 2).val < 1024 := (i 2).isLt
  unfold Cert.Layout.unflatten
  refine shapeCast_apply y shapeCasts_S16384x1024_S16x1024x1024 i _ ?_
  rewrite [Shape.rowMajor_val_two, Shape.rowMajor_val_three]
  show ((i 0).val * 1024 + (i 1).val) * 1024 + (i 2).val = ((i 0).val * 1024 + (i 1).val) * 1024 + (i 2).val
  rfl

end Cert.KernelIdeal.Val

end
-- ==== Proof.Val.Compose.lean ====
/-
  The three whole-array stages in the two-dimensional layout, composed between the flattening of the activations and
  the unflattening of the result, are the specification.

  Row b * 1024 + n of the flattened arrays is batch b, position n: its quotient by 1024 is b, its remainder n, and the
  rows of its batch are b * 1024 + m. Column s * 1024 + (c / 64) * 64 + d is part s, head c / 64, entry d.
-/
import proofs.«132312_j85676007621236_2_alg».proof.Proof.Layout

noncomputable section

namespace Cert.Layout

open Idealize.ShloMosaic Idealize.ShloMosaic.ValueIdx

/-- The flattened row of batch `b`, position `n`. -/
def rowOf (b : Fin 16) (n : Fin 1024) : Fin 16384 :=
  ⟨b.val * 1024 + n.val, by have := b.isLt; have := n.isLt; omega⟩

/-- The rows of the batch of row (b, n) are the rows (b, m). -/
theorem batchRow_rowOf (b : Fin 16) (n m : Fin 1024) : batchRow (rowOf b n) m = rowOf b m := Fin.ext (by
  have hb := b.isLt; have hn := n.isLt; have hm := m.isLt
  show (b.val * 1024 + n.val) / 1024 * 1024 + m.val = b.val * 1024 + m.val
  omega)

/-- A part's column for the head of column `c` is the specification's column of that part and head. -/
theorem partCol_eq (s : Fin 3) (c : Fin 1024) (d : Fin 64) :
    partCol s c d = Cert.Spec.col s (Cert.Spec.headOf c) d := rfl

/-- The flattened activations at row (b, n). -/
theorem flatten_at (x : Cert.Spec.Acts) (b : Fin 16) (n k : Fin 1024) :
    flatten x (ix2 (rowOf b n) k) = x (ix3 b n k) := by
  have hb := b.isLt; have hn := n.isLt
  unfold flatten
  refine congrArg x (funext fun a => ?_)
  match a with
  | ⟨0, _⟩ => exact Fin.ext (by show (b.val * 1024 + n.val) / 1024 = b.val; omega)
  | ⟨1, _⟩ => exact Fin.ext (by show (b.val * 1024 + n.val) % 1024 = n.val; omega)
  | ⟨2, _⟩ => rfl

/-- The first stage on the flattened activations is the projection. -/
theorem projArr_flatten_at (x : Cert.Spec.Acts) (w : Cert.Spec.WQkv) (b : Fin 16) (n : Fin 1024) (o : Fin 3072) :
    projArr (flatten x) w (ix2 (rowOf b n) o) = Cert.Spec.proj x w b n o := by
  unfold projArr Cert.Spec.proj
  refine Finset.sum_congr rfl fun k _ => ?_
  show flatten x (ix2 (rowOf b n) k) * w (ix2 o k) = _
  rw [flatten_at]

/-- The second stage on the projection is the attention output of the column's head and entry. -/
theorem attnArr_at (x : Cert.Spec.Acts) (w : Cert.Spec.WQkv) (b : Fin 16) (n c : Fin 1024) :
    attnArr (projArr (flatten x) w) (ix2 (rowOf b n) c)
      = Cert.Spec.attn x w b (Cert.Spec.headOf c) n (Cert.Spec.entryOf c) := by
  show Cert.Spec.headRow
      (fun d' => projArr (flatten x) w (ix2 (rowOf b n) (partCol 0 c d')))
      (fun m d' => projArr (flatten x) w (ix2 (batchRow (rowOf b n) m) (partCol 1 c d')))
      (fun m d' => projArr (flatten x) w (ix2 (batchRow (rowOf b n) m) (partCol 2 c d')))
      (Cert.Spec.entryOf c) = _
  simp only [batchRow_rowOf, projArr_flatten_at, partCol_eq]
  rfl

/-- The three stages composed between the host reshapes are the specification. -/
theorem compose_eq_spec (x : Cert.Spec.Acts) (w : Cert.Spec.WQkv) (wo : Cert.Spec.WOut) (bo : Cert.Spec.BOut) :
    unflatten (outArr (attnArr (projArr (flatten x) w)) wo (biasRow bo)) = Cert.Spec.result x w wo bo := by
  funext i
  obtain ⟨b, n, o, rfl⟩ : ∃ (b : Fin 16) (n : Fin 1024) (o : Fin 1024), i = ix3 b n o := ⟨i 0, i 1, i 2, eq_ix3 i⟩
  show (∑ c : Fin 1024, attnArr (projArr (flatten x) w) (ix2 (rowOf b n) c) * wo (ix2 o c)) + bo (ix1 o)
    = (∑ c : Fin 1024, Cert.Spec.attn x w b (Cert.Spec.headOf c) n (Cert.Spec.entryOf c) * wo (ix2 o c)) + bo (ix1 o)
  congr 1
  refine Finset.sum_congr rfl fun c _ => ?_
  rw [attnArr_at]

end Cert.Layout

end
-- ==== Proof.KI.Value.lean ====
/-
  The idealized kernel's result is the specification: the last contents of the result buffer, read through the fold of
  the main function — reshape, projection, attention, reshape, output projection, reshape — with each call's output
  array as a whole-array function of what the call found, is the specification's result of the four arguments.
-/
import proofs.«132312_j85676007621236_2_alg».proof.Proof.KI.Fold
import proofs.«132312_j85676007621236_2_alg».proof.Proof.Val.Array0
import proofs.«132312_j85676007621236_2_alg».proof.Proof.Val.Array1
import proofs.«132312_j85676007621236_2_alg».proof.Proof.Val.Array2
import proofs.«132312_j85676007621236_2_alg».proof.Proof.Val.Reshapes
import proofs.«132312_j85676007621236_2_alg».proof.Proof.Val.Compose

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result buffer's last contents on core `c`. -/
theorem result_is_spec (c : Dev nD) :
    (Hand.W6 (F := Ideal) m ρ c (Proc.devRef .tc main_v5) : S16x1024x1024.Idx → EReal)
      = Cert.Spec.result (m ((c : Thread nD τ).loc main_arg0)) (m ((c : Thread nD τ).loc main_arg1))
          (m ((c : Thread nD τ).loc main_arg2)) (m ((c : Thread nD τ).loc main_arg3)) := by
  rw [Hand.W6_v5, array2, Hand.V4_v2, array1, Hand.V2_v1, array0, Hand.V1_v0, Hand.V1_arg1, Hand.V4_arg2, Hand.V4_v3,
    reshape_acts, reshape_bias, reshape_result]
  exact Cert.Layout.compose_eq_spec _ _ _ _

end Cert.KernelIdeal.Val

end
-- ==== Proof.RefRead.lean ====
/-
  The reference program's run and its stages read at an index: the generated modules this proof's reference side builds on.
-/
import proofs.«132312_j85676007621236_2_alg».proof.Proof.Gen.ReferenceIdeal.Run
import proofs.«132312_j85676007621236_2_alg».proof.Proof.Gen.ReferenceIdeal.Read
-- ==== Proof.Ref.Front.lean ====
/-
  The front of the reference program read at an index: the q/k/v projection, its three parts laid out per head,
  and the scaled attention scores, each as the specification's function of the two arguments.

  The projection's 3072 columns are reshaped to part x head x entry, the parts moved to the front, one part sliced
  out and the unit axis dropped; so entry (b, h, n, d) of part s is column s * 1024 + h * 64 + d of row (b, n).
-/
import proofs.«132312_j85676007621236_2_alg».proof.Proof.RefRead
import proofs.«132312_j85676007621236_2_alg».proof.Proof.Spec
import Idealize.ShloMosaic.Lib.ValueIdx
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

/-- The projection at (b, n, o) is the sum over k of x (b, n, k) * w (o, k). -/
theorem proj_at (x0 : (⟨S16x1024x1024, .f32⟩ : BufTy).Contents (Elt Ideal)) (x1 : (⟨S3072x1024, .f32⟩ : BufTy).Contents (Elt Ideal))
    (b : Fin 16) (n : Fin 1024) (o : Fin 3072) :
    val_main_v0 (F := Ideal) x0 x1 (ix3 b n o) = Cert.Spec.proj x0 x1 b n o := by
  rw [val_main_v0_apply]
  unfold Cert.Spec.proj
  refine Finset.sum_congr rfl fun k _ => ?_
  have el : lidx_main_v0 (ix3 b n o) k = ix3 b n k := funext fun a => by
    match a with
    | ⟨0, _⟩ => rfl
    | ⟨1, _⟩ => rfl
    | ⟨2, _⟩ => rfl
  have er : ridx_main_v0 (ix3 b n o) k = ix2 o k := funext fun a => by
    match a with
    | ⟨0, _⟩ => rfl
    | ⟨1, _⟩ => rfl
  rw [el, er]

/-- Dropping the unit axis: (b, h, n, d) of the rank-4 array is (0, b, h, n, d) of the rank-5 one. -/
theorem idx4_at (b h : Fin 16) (n : Fin 1024) (d : Fin 64) :
    idx_main_v4 (ix4 b h n d) = ix5 (0 : Fin 1) b h n d := funext fun a => Fin.ext (by
  have hb := b.isLt; have hh := h.isLt; have hn := n.isLt; have hd := d.isLt
  match a with
  | ⟨0, _⟩ => rfl
  | ⟨1, _⟩ => show (((b.val * 16 + h.val) * 1024 + n.val) * 64 + d.val) / 1048576 % 16 = b.val; omega
  | ⟨2, _⟩ => show (((b.val * 16 + h.val) * 1024 + n.val) * 64 + d.val) / 65536 % 16 = h.val; omega
  | ⟨3, _⟩ => show (((b.val * 16 + h.val) * 1024 + n.val) * 64 + d.val) / 64 % 1024 = n.val; omega
  | ⟨4, _⟩ => show (((b.val * 16 + h.val) * 1024 + n.val) * 64 + d.val) % 64 = d.val; omega)

theorem idx6_at (b h : Fin 16) (n : Fin 1024) (d : Fin 64) :
    idx_main_v6 (ix4 b h n d) = ix5 (0 : Fin 1) b h n d := idx4_at b h n d

theorem idx8_at (b h : Fin 16) (n : Fin 1024) (d : Fin 64) :
    idx_main_v8 (ix4 b h n d) = ix5 (0 : Fin 1) b h n d := idx4_at b h n d

/-- The three slices: part 0, 1, 2 of the part-major array. -/
theorem idx3_at (b h : Fin 16) (n : Fin 1024) (d : Fin 64) :
    idx_main_v3 (ix5 (0 : Fin 1) b h n d) = ix5 (0 : Fin 3) b h n d := funext fun a => Fin.ext (by
  match a with
  | ⟨0, _⟩ => rfl
  | ⟨1, _⟩ => rfl
  | ⟨2, _⟩ => rfl
  | ⟨3, _⟩ => rfl
  | ⟨4, _⟩ => rfl)

theorem idx5_at (b h : Fin 16) (n : Fin 1024) (d : Fin 64) :
    idx_main_v5 (ix5 (0 : Fin 1) b h n d) = ix5 (1 : Fin 3) b h n d := funext fun a => Fin.ext (by
  match a with
  | ⟨0, _⟩ => rfl
  | ⟨1, _⟩ => rfl
  | ⟨2, _⟩ => rfl
  | ⟨3, _⟩ => rfl
  | ⟨4, _⟩ => rfl)

theorem idx7_at (b h : Fin 16) (n : Fin 1024) (d : Fin 64) :
    idx_main_v7 (ix5 (0 : Fin 1) b h n d) = ix5 (2 : Fin 3) b h n d := funext fun a => Fin.ext (by
  match a with
  | ⟨0, _⟩ => rfl
  | ⟨1, _⟩ => rfl
  | ⟨2, _⟩ => rfl
  | ⟨3, _⟩ => rfl
  | ⟨4, _⟩ => rfl)

/-- The transpose: (s, b, h, n, d) of the part-major array is (b, n, s, h, d) of the reshaped projection. -/
theorem idx2_at (s : Fin 3) (b h : Fin 16) (n : Fin 1024) (d : Fin 64) :
    idx_main_v2 (ix5 s b h n d) = ix5 b n s h d := funext fun a => Fin.ext (by
  match a with
  | ⟨0, _⟩ => rfl
  | ⟨1, _⟩ => rfl
  | ⟨2, _⟩ => rfl
  | ⟨3, _⟩ => rfl
  | ⟨4, _⟩ => rfl)

/-- The reshape: (b, n, s, h, d) is column s * 1024 + h * 64 + d of row (b, n). -/
theorem idx1_at (s : Fin 3) (b h : Fin 16) (n : Fin 1024) (d : Fin 64) :
    idx_main_v1 (ix5 b n s h d) = ix3 b n (Cert.Spec.col s h d) := funext fun a => Fin.ext (by
  have hs := s.isLt; have hb := b.isLt; have hh := h.isLt; have hn := n.isLt; have hd := d.isLt
  match a with
  | ⟨0, _⟩ => show ((((b.val * 1024 + n.val) * 3 + s.val) * 16 + h.val) * 64 + d.val) / 3145728 = b.val; omega
  | ⟨1, _⟩ => show ((((b.val * 1024 + n.val) * 3 + s.val) * 16 + h.val) * 64 + d.val) / 3072 % 1024 = n.val; omega
  | ⟨2, _⟩ => show ((((b.val * 1024 + n.val) * 3 + s.val) * 16 + h.val) * 64 + d.val) % 3072 = s.val * 1024 + h.val * 64 + d.val; omega)

/-- Part s of the part-major array at (s, b, h, n, d). -/
theorem part_at (x0 : (⟨S16x1024x1024, .f32⟩ : BufTy).Contents (Elt Ideal)) (x1 : (⟨S3072x1024, .f32⟩ : BufTy).Contents (Elt Ideal))
    (s : Fin 3) (b h : Fin 16) (n : Fin 1024) (d : Fin 64) :
    val_main_v2 (F := Ideal) x0 x1 (ix5 s b h n d) = Cert.Spec.proj x0 x1 b n (Cert.Spec.col s h d) := by
  rw [val_main_v2_apply, idx2_at, val_main_v1_apply, idx1_at, proj_at]

theorem query_at (x0 : (⟨S16x1024x1024, .f32⟩ : BufTy).Contents (Elt Ideal)) (x1 : (⟨S3072x1024, .f32⟩ : BufTy).Contents (Elt Ideal))
    (b h : Fin 16) (n : Fin 1024) (d : Fin 64) :
    val_main_v4 (F := Ideal) x0 x1 (ix4 b h n d) = Cert.Spec.proj x0 x1 b n (Cert.Spec.col 0 h d) := by
  rw [val_main_v4_apply, idx4_at, val_main_v3_apply, idx3_at, part_at]

theorem key_at (x0 : (⟨S16x1024x1024, .f32⟩ : BufTy).Contents (Elt Ideal)) (x1 : (⟨S3072x1024, .f32⟩ : BufTy).Contents (Elt Ideal))
    (b h : Fin 16) (n : Fin 1024) (d : Fin 64) :
    val_main_v6 (F := Ideal) x0 x1 (ix4 b h n d) = Cert.Spec.proj x0 x1 b n (Cert.Spec.col 1 h d) := by
  rw [val_main_v6_apply, idx6_at, val_main_v5_apply, idx5_at, part_at]

theorem value_at (x0 : (⟨S16x1024x1024, .f32⟩ : BufTy).Contents (Elt Ideal)) (x1 : (⟨S3072x1024, .f32⟩ : BufTy).Contents (Elt Ideal))
    (b h : Fin 16) (n : Fin 1024) (d : Fin 64) :
    val_main_v8 (F := Ideal) x0 x1 (ix4 b h n d) = Cert.Spec.proj x0 x1 b n (Cert.Spec.col 2 h d) := by
  rw [val_main_v8_apply, idx8_at, val_main_v7_apply, idx7_at, part_at]

/-- The scaled scores: (the sum over d of query (n, d) * key (m, d)) * 1/8. -/
theorem score_at (x0 : (⟨S16x1024x1024, .f32⟩ : BufTy).Contents (Elt Ideal)) (x1 : (⟨S3072x1024, .f32⟩ : BufTy).Contents (Elt Ideal))
    (b h : Fin 16) (n m : Fin 1024) :
    val_main_v11 (F := Ideal) x0 x1 (ix4 b h n m)
      = Cert.Spec.scoreRow (fun d' => Cert.Spec.proj x0 x1 b n (Cert.Spec.col 0 h d'))
          (fun m' d' => Cert.Spec.proj x0 x1 b m' (Cert.Spec.col 1 h d')) m := by
  rw [val_main_v11_apply, val_main_v9_apply, val_main_v10_apply, val_main_cst_apply]
  unfold Cert.Spec.scoreRow Cert.Spec.eighth
  show (∑ k : Fin 64, _) * _ = _
  congr 1
  refine Finset.sum_congr rfl fun k _ => ?_
  have el : lidx_main_v9 (ix4 b h n m) k = ix4 b h n k := funext fun a => by
    match a with
    | ⟨0, _⟩ => rfl
    | ⟨1, _⟩ => rfl
    | ⟨2, _⟩ => rfl
    | ⟨3, _⟩ => rfl
  have er : ridx_main_v9 (ix4 b h n m) k = ix4 b h m k := funext fun a => by
    match a with
    | ⟨0, _⟩ => rfl
    | ⟨1, _⟩ => rfl
    | ⟨2, _⟩ => rfl
    | ⟨3, _⟩ => rfl
  rw [el, er, query_at, key_at]

end Cert.RefSide

end
-- ==== Proof.Ref.Back.lean ====
/-
  The back of the reference program read at an index: from the scores of one query row through the row's maximum,
  the exponentials, their sum, the quotient, the weighted sum of the values, the re-layout of the heads side by side and
  the output projection with its bias. Each stage is stated at the literal coordinates of its entry.
-/
import proofs.«132312_j85676007621236_2_alg».proof.Proof.RefRead
import proofs.«132312_j85676007621236_2_alg».proof.Proof.Spec
import proofs.«132312_j85676007621236_2_alg».proof.Proof.Ref.Front
import Idealize.ShloMosaic.PureOps.Reduce
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

/-- Over entry (p, q, r) of the result, position k of a reduction along the last axis of an [a, b, c, d] array is
    the entry (p, q, r, k) of the operand. -/
theorem lift_last4 {a b c d : ℕ} (h : Shape.Reduces ⟨4, ![a, b, c, d]⟩ [3] ⟨3, ![a, b, c]⟩) (p : Fin a) (q : Fin b)
    (r : Fin c) (k : Fin d) : h.lift (ix3 p q r) k = ix4 p q r k :=
  funext fun ax => Fin.ext (by match ax with | ⟨0, _⟩ => rfl | ⟨1, _⟩ => rfl | ⟨2, _⟩ => rfl | ⟨3, _⟩ => rfl)

abbrev X0 : Type := (⟨S16x1024x1024, .f32⟩ : BufTy).Contents (Elt Ideal)
abbrev X1 : Type := (⟨S3072x1024, .f32⟩ : BufTy).Contents (Elt Ideal)
abbrev X2 : Type := (⟨S1024x1024, .f32⟩ : BufTy).Contents (Elt Ideal)
abbrev X3 : Type := (⟨S1024, .f32⟩ : BufTy).Contents (Elt Ideal)

/-- The scores of query row (b, h, n) against every key, as the program holds them. -/
abbrev sc (x0 : X0) (x1 : X1) (b h : Fin 16) (n : Fin 1024) : Fin 1024 → EReal :=
  fun m => val_main_v11 (F := Ideal) x0 x1 (ix4 b h n m)

/-- The row maximum: the fold of max from -inf along the last axis. -/
theorem v12_at (x0 : X0) (x1 : X1) (b h : Fin 16) (n : Fin 1024) :
    val_main_v12 (F := Ideal) x0 x1 (ix3 b h n) = Cert.Spec.maxRow (sc x0 x1 b h n) := by
  unfold val_main_v12 sc
  generalize val_main_v11 (F := Ideal) x0 x1 = y
  have hR : Shape.Reduces S16x16x1024x1024 [3] S16x16x1024 := by decide
  refine (Host.reduce_eq_fold_single (FloatOps.maximumf (F := Ideal) (φ := .f32)) y (val_main_cst_0 (F := Ideal))
    reducesTo_S16x16x1024x1024_S16x16x1024_d3 hR h_S_ (ix3 b h n)).trans ?_
  unfold Cert.Spec.maxRow
  refine Finset.fold_congr fun m _ => ?_
  exact congrArg y (lift_last4 hR b h n m)

/-- A further max with -inf changes nothing. -/
theorem v14_at (x0 : X0) (x1 : X1) (b h : Fin 16) (n : Fin 1024) :
    val_main_v14 (F := Ideal) x0 x1 (ix3 b h n) = Cert.Spec.maxRow (sc x0 x1 b h n) := by
  rw [val_main_v14_apply, val_main_v13_apply, v12_at]
  exact Cert.Spec.max_ninf_maxRow _

/-- The maximum laid back along the row. -/
theorem v16_at (x0 : X0) (x1 : X1) (b h : Fin 16) (n m : Fin 1024) :
    val_main_v16 (F := Ideal) x0 x1 (ix4 b h n m) = Cert.Spec.maxRow (sc x0 x1 b h n) := by
  rw [val_main_v16_apply, val_main_v15_apply]
  have e : idx_main_v15 (idx_main_v16 (ix4 b h n m)) = ix3 b h n :=
    funext fun a => by match a with | ⟨0, _⟩ => rfl | ⟨1, _⟩ => rfl | ⟨2, _⟩ => rfl
  rw [e, v14_at]

/-- The unnormalised weight: the exponential of the score less the row's maximum. -/
theorem v18_at (x0 : X0) (x1 : X1) (b h : Fin 16) (n m : Fin 1024) :
    val_main_v18 (F := Ideal) x0 x1 (ix4 b h n m) = Cert.Spec.expRow (sc x0 x1 b h n) m := by
  rw [val_main_v18_apply, val_main_v17_apply, v16_at]
  rfl

/-- The sum of the weights of a row. -/
theorem v19_at (x0 : X0) (x1 : X1) (b h : Fin 16) (n : Fin 1024) :
    val_main_v19 (F := Ideal) x0 x1 (ix3 b h n) = Cert.Spec.sumRow (sc x0 x1 b h n) := by
  rw [val_main_v19_apply]
  have z : (val_main_cst_2 (F := Ideal)) (Shape.Idx.first h_S_) = 0 := Ideal.ofBits_zero_f32
  rw [z, zero_add]
  unfold Cert.Spec.sumRow
  refine Finset.sum_congr rfl fun k _ => ?_
  have e : idx_main_v19 (ix3 b h n) k = ix4 b h n k :=
    funext fun a => by match a with | ⟨0, _⟩ => rfl | ⟨1, _⟩ => rfl | ⟨2, _⟩ => rfl | ⟨3, _⟩ => rfl
  rw [e, v18_at]

/-- The sum laid back along the row. -/
theorem v21_at (x0 : X0) (x1 : X1) (b h : Fin 16) (n m : Fin 1024) :
    val_main_v21 (F := Ideal) x0 x1 (ix4 b h n m) = Cert.Spec.sumRow (sc x0 x1 b h n) := by
  rw [val_main_v21_apply, val_main_v20_apply]
  have e : idx_main_v20 (idx_main_v21 (ix4 b h n m)) = ix3 b h n :=
    funext fun a => by match a with | ⟨0, _⟩ => rfl | ⟨1, _⟩ => rfl | ⟨2, _⟩ => rfl
  rw [e, v19_at]

/-- The normalised weight. -/
theorem v22_at (x0 : X0) (x1 : X1) (b h : Fin 16) (n m : Fin 1024) :
    val_main_v22 (F := Ideal) x0 x1 (ix4 b h n m)
      = Ideal.div (Cert.Spec.expRow (sc x0 x1 b h n) m) (Cert.Spec.sumRow (sc x0 x1 b h n)) := by
  rw [val_main_v22_apply, v18_at, v21_at]
  rfl

/-- The weighted sum of the values. -/
theorem v23_at (x0 : X0) (x1 : X1) (b h : Fin 16) (n : Fin 1024) (d : Fin 64) :
    val_main_v23 (F := Ideal) x0 x1 (ix4 b h n d)
      = ∑ m : Fin 1024, Ideal.div (Cert.Spec.expRow (sc x0 x1 b h n) m) (Cert.Spec.sumRow (sc x0 x1 b h n))
          * val_main_v8 (F := Ideal) x0 x1 (ix4 b h m d) := by
  rw [val_main_v23_apply]
  refine Finset.sum_congr rfl fun k _ => ?_
  have el : lidx_main_v23 (ix4 b h n d) k = ix4 b h n k :=
    funext fun a => by match a with | ⟨0, _⟩ => rfl | ⟨1, _⟩ => rfl | ⟨2, _⟩ => rfl | ⟨3, _⟩ => rfl
  have er : ridx_main_v23 (ix4 b h n d) k = ix4 b h k d :=
    funext fun a => by match a with | ⟨0, _⟩ => rfl | ⟨1, _⟩ => rfl | ⟨2, _⟩ => rfl | ⟨3, _⟩ => rfl
  rw [el, er, v22_at]

/-- The scores and the values as the front of the program gives them: the two facts the back takes from it. -/
abbrev ScoreFact : Prop := ∀ (x0 : X0) (x1 : X1) (b h : Fin 16) (n m : Fin 1024),
  val_main_v11 (F := Ideal) x0 x1 (ix4 b h n m)
    = Cert.Spec.scoreRow (fun d' => Cert.Spec.proj x0 x1 b n (Cert.Spec.col 0 h d'))
        (fun m' d' => Cert.Spec.proj x0 x1 b m' (Cert.Spec.col 1 h d')) m
abbrev ValueFact : Prop := ∀ (x0 : X0) (x1 : X1) (b h : Fin 16) (n : Fin 1024) (d : Fin 64),
  val_main_v8 (F := Ideal) x0 x1 (ix4 b h n d) = Cert.Spec.proj x0 x1 b n (Cert.Spec.col 2 h d)

/-- One head's output at a query row is the specification's. -/
theorem attn_at_of (hscore : ScoreFact) (hvalue : ValueFact) (x0 : X0) (x1 : X1) (b h : Fin 16) (n : Fin 1024) (d : Fin 64) :
    val_main_v23 (F := Ideal) x0 x1 (ix4 b h n d) = Cert.Spec.attn x0 x1 b h n d := by
  rw [v23_at]
  have hs : sc x0 x1 b h n
      = Cert.Spec.scoreRow (fun d' => Cert.Spec.proj x0 x1 b n (Cert.Spec.col 0 h d'))
          (fun m' d' => Cert.Spec.proj x0 x1 b m' (Cert.Spec.col 1 h d')) :=
    funext fun m => hscore x0 x1 b h n m
  rw [hs]
  unfold Cert.Spec.attn Cert.Spec.headRow
  refine Finset.sum_congr rfl fun m _ => ?_
  rw [hvalue]

/-- The heads laid side by side: column c holds entry c % 64 of head c / 64. -/
theorem heads_at_of (hscore : ScoreFact) (hvalue : ValueFact) (x0 : X0) (x1 : X1) (b : Fin 16) (n c : Fin 1024) :
    val_main_v25 (F := Ideal) x0 x1 (ix3 b n c)
      = Cert.Spec.attn x0 x1 b (Cert.Spec.headOf c) n (Cert.Spec.entryOf c) := by
  rw [val_main_v25_apply, val_main_v24_apply]
  have e : idx_main_v24 (idx_main_v25 (ix3 b n c)) = ix4 b (Cert.Spec.headOf c) n (Cert.Spec.entryOf c) :=
    funext fun a => Fin.ext (by
      have hb := b.isLt; have hn := n.isLt; have hc := c.isLt
      match a with
      | ⟨0, _⟩ => show ((b.val * 1024 + n.val) * 1024 + c.val) / 1048576 = b.val; omega
      | ⟨1, _⟩ => show ((b.val * 1024 + n.val) * 1024 + c.val) / 64 % 16 = c.val / 64; omega
      | ⟨2, _⟩ => show ((b.val * 1024 + n.val) * 1024 + c.val) / 1024 % 1024 = n.val; omega
      | ⟨3, _⟩ => show ((b.val * 1024 + n.val) * 1024 + c.val) % 64 = c.val % 64; omega)
  rw [e, attn_at_of hscore hvalue]

/-- The output projection and the bias: an entry of the result. -/
theorem out_at_of (hscore : ScoreFact) (hvalue : ValueFact) (x0 : X0) (x1 : X1) (x2 : X2) (x3 : X3) (b : Fin 16) (n o : Fin 1024) :
    val_main_v29 (F := Ideal) x0 x1 x2 x3 (ix3 b n o) = Cert.Spec.out x0 x1 x2 x3 b n o := by
  rw [val_main_v29_apply, val_main_v26_apply, val_main_v28_apply, val_main_v27_apply, Ideal.addf_def]
  unfold Cert.Spec.out
  have hb : idx_main_v27 (idx_main_v28 (ix3 b n o)) = ix1 o :=
    funext fun a => by match a with | ⟨0, _⟩ => rfl
  rw [hb]
  refine congrArg (· + x3 (ix1 o)) (Finset.sum_congr rfl fun k _ => ?_)
  have el : lidx_main_v26 (ix3 b n o) k = ix3 b n k :=
    funext fun a => by match a with | ⟨0, _⟩ => rfl | ⟨1, _⟩ => rfl | ⟨2, _⟩ => rfl
  have er : ridx_main_v26 (ix3 b n o) k = ix2 o k :=
    funext fun a => by match a with | ⟨0, _⟩ => rfl | ⟨1, _⟩ => rfl
  rw [el, er, heads_at_of hscore hvalue]

/-- The reference program's result is the specification's array. -/
theorem ref_is_spec_of (hscore : ScoreFact) (hvalue : ValueFact) (x0 : X0) (x1 : X1) (x2 : X2) (x3 : X3) :
    val_main_v29 (F := Ideal) x0 x1 x2 x3 = Cert.Spec.result x0 x1 x2 x3 := by
  funext i
  obtain ⟨b, n, o, rfl⟩ : ∃ (b : Fin 16) (n o : Fin 1024), i = ix3 b n o := ⟨i 0, i 1, i 2, eq_ix3 i⟩
  exact out_at_of hscore hvalue x0 x1 x2 x3 b n o

/-! The same with the front's two facts plugged in. -/

theorem attn_at (x0 : X0) (x1 : X1) (b h : Fin 16) (n : Fin 1024) (d : Fin 64) :
    val_main_v23 (F := Ideal) x0 x1 (ix4 b h n d) = Cert.Spec.attn x0 x1 b h n d :=
  attn_at_of score_at value_at x0 x1 b h n d

theorem heads_at (x0 : X0) (x1 : X1) (b : Fin 16) (n c : Fin 1024) :
    val_main_v25 (F := Ideal) x0 x1 (ix3 b n c)
      = Cert.Spec.attn x0 x1 b (Cert.Spec.headOf c) n (Cert.Spec.entryOf c) :=
  heads_at_of score_at value_at x0 x1 b n c

theorem out_at (x0 : X0) (x1 : X1) (x2 : X2) (x3 : X3) (b : Fin 16) (n o : Fin 1024) :
    val_main_v29 (F := Ideal) x0 x1 x2 x3 (ix3 b n o) = Cert.Spec.out x0 x1 x2 x3 b n o :=
  out_at_of score_at value_at x0 x1 x2 x3 b n o

theorem ref_is_spec (x0 : X0) (x1 : X1) (x2 : X2) (x3 : X3) :
    val_main_v29 (F := Ideal) x0 x1 x2 x3 = Cert.Spec.result x0 x1 x2 x3 :=
  ref_is_spec_of score_at value_at x0 x1 x2 x3

end Cert.RefSide

end
-- ==== Proof.lean ====
/-
  The certificate's claim.  A transformer attention block — q/k/v projection, softmax attention per head, output
  projection with bias — computed by three pallas_calls over a two-dimensional row layout, against the same block
  written with einsums over [batch, head, position, entry] arrays.

  Frames: each kernel program is run as six segments (three host reshapes, three calls); every call's body is run
  symbolically on whole staging buffers, so every weakly fair execution terminates without a fault, and no segment
  writes an argument.  The reference is a straight line of host operations.

  Values, over the extended reals: a change of float format is the identity and a matrix product is a finite sum, so
  each call's output array is a whole-array function of its inputs (the blocks of the grid tile the array), the three
  compose to the specification (Proof/Spec.lean) by index arithmetic alone (row r = 1024 b + n; column h * 64 + d of
  part s of the projection), and the reference's stages read at an index are the same specification.  No sum is
  reordered except by relabelling its index, the two programs take the same maxima, exponentials and quotients, and
  no finiteness of the inputs is used.
-/
import proofs.«132312_j85676007621236_2_alg».proof.Defs
import proofs.«132312_j85676007621236_2_alg».proof.Proof.Gen.Kernel
import proofs.«132312_j85676007621236_2_alg».proof.Proof.Gen.KernelIdeal
import proofs.«132312_j85676007621236_2_alg».proof.Proof.Gen.ReferenceIdeal
import proofs.«132312_j85676007621236_2_alg».proof.Proof.Gen.Pre_finite_inputs
import proofs.«132312_j85676007621236_2_alg».proof.Proof.K.Fold
import proofs.«132312_j85676007621236_2_alg».proof.Proof.KI.Value
import proofs.«132312_j85676007621236_2_alg».proof.Proof.Ref.Back
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun r h c =>
    ⟨(h c _ (Cert.Kernel.Hand.mem_uc Cert.Kernel.main_arg0 (by decide))).trans (Cert.Kernel.Hand.W6_arg0 m ρ c),
     (h c _ (Cert.Kernel.Hand.mem_uc Cert.Kernel.main_arg1 (by decide))).trans (Cert.Kernel.Hand.W6_arg1 m ρ c),
     (h c _ (Cert.Kernel.Hand.mem_uc Cert.Kernel.main_arg2 (by decide))).trans (Cert.Kernel.Hand.W6_arg2 m ρ c),
     (h c _ (Cert.Kernel.Hand.mem_uc Cert.Kernel.main_arg3 (by decide))).trans (Cert.Kernel.Hand.W6_arg3 m ρ c)⟩)
    (Cert.Kernel.Hand.run_main (F := Bits) m ρ)

/-- The idealized kernel runs, ends with its result at the specification, and leaves its arguments as launched. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v5)
            = Cert.Spec.result (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono (fun r h c =>
    ⟨(h c _ (Cert.KernelIdeal.Hand.mem_uc Cert.KernelIdeal.main_v5 (by decide))).trans (Cert.KernelIdeal.Val.result_is_spec m ρ c),
     (h c _ (Cert.KernelIdeal.Hand.mem_uc Cert.KernelIdeal.main_arg0 (by decide))).trans (Cert.KernelIdeal.Hand.W6_arg0 m ρ c),
     (h c _ (Cert.KernelIdeal.Hand.mem_uc Cert.KernelIdeal.main_arg1 (by decide))).trans (Cert.KernelIdeal.Hand.W6_arg1 m ρ c),
     (h c _ (Cert.KernelIdeal.Hand.mem_uc Cert.KernelIdeal.main_arg2 (by decide))).trans (Cert.KernelIdeal.Hand.W6_arg2 m ρ c),
     (h c _ (Cert.KernelIdeal.Hand.mem_uc Cert.KernelIdeal.main_arg3 (by decide))).trans (Cert.KernelIdeal.Hand.W6_arg3 m ρ c)⟩)
    (Cert.KernelIdeal.Hand.run_main (F := Ideal) m ρ)

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (run_ki m ρ)

/-- The reference runs and leaves its arguments as launched: its generated run with the result dropped. -/
theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

/-- From memories agreeing on the arguments both idealized programs end with the specification's result. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨_, run_ki m ρ, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v29_eq, Cert.RefSide.ref_is_spec, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
